-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x256 : Shape := ⟨3, ![64, 4096, 256]⟩
abbrev S256 : Shape := ⟨1, ![256]⟩
abbrev S256x512 : Shape := ⟨2, ![256, 512]⟩
abbrev S256x256 : Shape := ⟨2, ![256, 256]⟩
abbrev S_ : Shape := ⟨0, ![]⟩

class Facts : Prop where
  bcast_S_S64x4096x256 : S_.BroadcastsInDim S64x4096x256 (![] : Fin 0 → Fin S64x4096x256.rank)
  reducesTo_S64x4096x256_S_d0_1_2 : S64x4096x256.ReducesTo [0, 1, 2] S_
  h_S_ : 0 < S_.numel
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg4 : FVec F S256 .f32) (main_arg5 : FVec F S256x256 .f32) (main_arg6 : FVec F S256 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S64x4096x256 .f32) (main_arg1 : FVec F S256 .f32) (main_arg2 : FVec F S256 .f32) (main_arg3 : FVec F S256x512 .f32) (main_arg4 : FVec F S256 .f32) (main_arg5 : FVec F S256x256 .f32) (main_arg6 : FVec F S256 .f32) : IVec S_ 1 :=
  let main_v0 : FVec F S64x4096x256 .f32 := Host.absf main_arg0
  let main_cst : FVec F S_ .f32 := constant S_ .f32 0x7F800000#32
  let main_v1 : FVec F S64x4096x256 .f32 := broadcastInDim S64x4096x256 ![] bcast_S_S64x4096x256 main_cst
  let main_v2 : IVec S64x4096x256 1 := cmpf .olt main_v0 main_v1
  let main_c : IVec S_ 1 := constantI S_ 1 1#1
  let main_v3 : IVec S_ 1 := (fun x v => Host.reduce IntOp.andi x v reducesTo_S64x4096x256_S_d0_1_2 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_arg5 main_arg6 main_v13 main_v16
-- ==== Kernel.lean ====
abbrev S64x4096x256 : Shape := ⟨3, ![64, 4096, 256]⟩
abbrev S256 : Shape := ⟨1, ![256]⟩
abbrev S256x512 : Shape := ⟨2, ![256, 512]⟩
abbrev S256x256 : Shape := ⟨2, ![256, 256]⟩
abbrev S1x256 : Shape := ⟨2, ![1, 256]⟩
abbrev S2x4096x256 : Shape := ⟨3, ![2, 4096, 256]⟩
abbrev S2x256 : Shape := ⟨2, ![2, 256]⟩
abbrev S2x1x256 : Shape := ⟨3, ![2, 1, 256]⟩
abbrev S2x512 : Shape := ⟨2, ![2, 512]⟩
abbrev S1x1x256 : Shape := ⟨3, ![1, 1, 256]⟩

abbrev nBuf : Space → Nat
  | .hbm => 12
  | .vmem => 10
  | .smem => 0
  | _ => 0

abbrev bufTy : (tb : Table) → Fin (tcTables nBuf tb) → BufTy
  | .hbm, ⟨0, _⟩ => ⟨S64x4096x256, .f32⟩
  | .hbm, ⟨1, _⟩ => ⟨S256, .f32⟩
  | .hbm, ⟨2, _⟩ => ⟨S256, .f32⟩
  | .hbm, ⟨3, _⟩ => ⟨S256x512, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S1x256, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S64x4096x256, .f32⟩
  | .local _ .vmem, ⟨0, _⟩ => ⟨S2x4096x256, .f32⟩
  | .local _ .vmem, ⟨1, _⟩ => ⟨S2x4096x256, .f32⟩
  | .local _ .vmem, ⟨2, _⟩ => ⟨S1x256, .f32⟩
  | .local _ .vmem, ⟨3, _⟩ => ⟨S1x256, .f32⟩
  | .local _ .vmem, ⟨4, _⟩ => ⟨S256x512, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S2x4096x256, .f32⟩
  | .local _ .vmem, ⟨9, _⟩ => ⟨S2x4096x256, .f32⟩
  | _, _ => ⟨S64x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x4096x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S256_S1x256 : S256.ShapeCasts S1x256
  inb_S2x4096x256_S2x4096x256_0_0_0 : ∀ a, (![0, 0, 0] : Fin 3 → Nat) a + S2x4096x256.size a ≤ S2x4096x256.size a
  h_S2x4096x256 : 0 < S2x4096x256.numel
  reduces_S2x4096x256_S2x256 : S2x4096x256.Reduces [1] S2x256
  shapeCasts_S2x256_S2x1x256 : S2x256.ShapeCasts S2x1x256
  shapeCasts_S2x1x256_S2x256 : S2x1x256.ShapeCasts S2x256
  concatenates_S2x256_S2x256_S2x512_d1 : Shape.Concatenates [S2x256, S2x256] S2x512 1
  inb_S256x512_S256x512_0_0 : ∀ a, (![0, 0] : Fin 2 → Nat) a + S256x512.size a ≤ S256x512.size a
  h_S256x512 : 0 < S256x512.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2x256 : S1x256.Broadcasts S2x256
  inb_S256x256_S256x256_0_0 : ∀ a, (![0, 0] : Fin 2 → Nat) a + S256x256.size a ≤ S256x256.size a
  h_S256x256 : 0 < S256x256.numel
  broadcasts_S2x1x256_S2x4096x256 : S2x1x256.Broadcasts S2x4096x256
  shapeCasts_S1x256_S1x1x256 : S1x256.ShapeCasts S1x1x256
  broadcasts_S1x1x256_S2x4096x256 : S1x1x256.Broadcasts S2x4096x256
  dot_S2x512_S256x512_S2x256_1_1_0_0_n_n_wf : DotDims.WF S2x512 S256x512 S2x256 [1] [1] [0] [0] [] []
  dot_S2x256_S256x256_S2x256_1_1_0_0_n_n_wf : DotDims.WF S2x256 S256x256 S2x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x4096x256.size a ≤ S64x4096x256.size a
  hwx0_0 : ∀ i : grid0.Coords, EltTy.bits .f32 = 32 ∨ (Rect.block (s := S64x4096x256) S2x4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .f32 = 32 ∨ (Rect.block (s := S256x512) S256x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2x4096x256.size a ≤ S64x4096x256.size a
  hwx0_7 : ∀ i : grid0.Coords, EltTy.bits .f32 = 32 ∨ (Rect.block (s := S64x4096x256) S2x4096x256.size (cc0_transform_7 i) (hinb0_7 i)).WholeWords (EltTy.packing .f32)

variable [Facts₀]

def dot_S2x512_S256x512_S2x256_1_1_0_0_n_n : DotDims S2x512 S256x512 S2x256 where
  lhsContracting := [1]
  rhsContracting := [1]
  lhsNonContracting := [0]
  rhsNonContracting := [0]
  lhsBatch := []
  rhsBatch := []
  wf := dot_S2x512_S256x512_S2x256_1_1_0_0_n_n_wf
def dot_S2x256_S256x256_S2x256_1_1_0_0_n_n : DotDims S2x256 S256x256 S2x256 where
  lhsContracting := [1]
  rhsContracting := [1]
  lhsNonContracting := [0]
  rhsNonContracting := [0]
  lhsBatch := []
  rhsBatch := []
  wf := dot_S2x256_S256x256_S2x256_1_1_0_0_n_n_wf

abbrev win0_0 : Pipeline.Window sig grid0 :=
  Pipeline.Window.ofSpec (Memref.whole main_arg0) S2x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S2x4096x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x4096x256 : Shape := ⟨3, ![64, 4096, 256]⟩
abbrev S256 : Shape := ⟨1, ![256]⟩
abbrev S256x512 : Shape := ⟨2, ![256, 512]⟩
abbrev S256x256 : Shape := ⟨2, ![256, 256]⟩
abbrev S_ : Shape := ⟨0, ![]⟩
abbrev S64x256 : Shape := ⟨2, ![64, 256]⟩
abbrev S64x1x256 : Shape := ⟨3, ![64, 1, 256]⟩
abbrev S64x1x512 : Shape := ⟨3, ![64, 1, 512]⟩
abbrev S1x1x256 : Shape := ⟨3, ![1, 1, 256]⟩

abbrev nBuf : Space → Nat
  | .hbm => 59
  | .vmem => 0
  | .smem => 0
  | _ => 0

abbrev bufTy : (tb : Table) → Fin (tcTables nBuf tb) → BufTy
  | .hbm, ⟨0, _⟩ => ⟨S64x4096x256, .f32⟩
  | .hbm, ⟨1, _⟩ => ⟨S256, .f32⟩
  | .hbm, ⟨2, _⟩ => ⟨S256, .f32⟩
  | .hbm, ⟨3, _⟩ => ⟨S256x512, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S_, .f32⟩
  | .hbm, ⟨8, _⟩ => ⟨S64x256, .f32⟩
  | .hbm, ⟨9, _⟩ => ⟨S64x1x256, .f32⟩
  | .hbm, ⟨10, _⟩ => ⟨S_, .f32⟩
  | .hbm, ⟨11, _⟩ => ⟨S64x1x256, .f32⟩
  | .hbm, ⟨12, _⟩ => ⟨S64x1x256, .f32⟩
  | .hbm, ⟨13, _⟩ => ⟨S64x4096x256, .f32⟩
  | .hbm, ⟨14, _⟩ => ⟨S64x4096x256, .f32⟩
  | .hbm, ⟨15, _⟩ => ⟨S64x4096x256, .f32⟩
  | .hbm, ⟨16, _⟩ => ⟨S_, .f32⟩
  | .hbm, ⟨17, _⟩ => ⟨S64x256, .f32⟩
  | .hbm, ⟨18, _⟩ => ⟨S64x1x256, .f32⟩
  | .hbm, ⟨19, _⟩ => ⟨S_, .f32⟩
  | .hbm, ⟨20, _⟩ => ⟨S64x1x256, .f32⟩
  | .hbm, ⟨21, _⟩ => ⟨S64x1x256, .f32⟩
  | .hbm, ⟨22, _⟩ => ⟨S_, .f32⟩
  | .hbm, ⟨23, _⟩ => ⟨S64x1x256, .f32⟩
  | .hbm, ⟨24, _⟩ => ⟨S64x1x256, .f32⟩
  | .hbm, ⟨25, _⟩ => ⟨S64x1x256, .f32⟩
  | .hbm, ⟨26, _⟩ => ⟨S64x4096x256, .f32⟩
  | .hbm, ⟨27, _⟩ => ⟨S64x4096x256, .f32⟩
  | .hbm, ⟨28, _⟩ => ⟨S64x4096x256, .f32⟩
  | .hbm, ⟨29, _⟩ => ⟨S64x4096x256, .f32⟩
  | .hbm, ⟨30, _⟩ => ⟨S64x1x512, .f32⟩
  | .hbm, ⟨31, _⟩ => ⟨S64x1x256, .f32⟩
  | .hbm, ⟨32, _⟩ => ⟨S1x1x256, .f32⟩
  | .hbm, ⟨33, _⟩ => ⟨S64x1x256, .f32⟩
  | .hbm, ⟨34, _⟩ => ⟨S64x1x256, .f32⟩
  | .hbm, ⟨35, _⟩ => ⟨S_, .f32⟩
  | .hbm, ⟨36, _⟩ => ⟨S64x1x256, .f32⟩
  | .hbm, ⟨37, _⟩ => ⟨S64x1x256, .f32⟩
  | .hbm, ⟨38, _⟩ => ⟨S64x1x256, .f32⟩
  | .hbm, ⟨39, _⟩ => ⟨S1x1x256, .f32⟩
  | .hbm, ⟨40, _⟩ => ⟨S64x1x256, .f32⟩
  | .hbm, ⟨41, _⟩ => ⟨S64x1x256, .f32⟩
  | .hbm, ⟨42, _⟩ => ⟨S64x1x256, .f32⟩
  | .hbm, ⟨43, _⟩ => ⟨S64x1x256, .f32⟩
  | .hbm, ⟨44, _⟩ => ⟨S_, .f32⟩
  | .hbm, ⟨45, _⟩ => ⟨S64x1x256, .f32⟩
  | .hbm, ⟨46, _⟩ => ⟨S64x1x256, .f32⟩
  | .hbm, ⟨47, _⟩ => ⟨S_, .f32⟩
  | .hbm, ⟨48, _⟩ => ⟨S64x1x256, .f32⟩
  | .hbm, ⟨49, _⟩ => ⟨S64x1x256, .f32⟩
  | .hbm, ⟨50, _⟩ => ⟨S64x4096x256, .f32⟩
  | .hbm, ⟨51, _⟩ => ⟨S64x4096x256, .f32⟩
  | .hbm, ⟨52, _⟩ => ⟨S64x4096x256, .f32⟩
  | .hbm, ⟨53, _⟩ => ⟨S1x1x256, .f32⟩
  | .hbm, ⟨54, _⟩ => ⟨S64x4096x256, .f32⟩
  | .hbm, ⟨55, _⟩ => ⟨S64x4096x256, .f32⟩
  | .hbm, ⟨56, _⟩ => ⟨S1x1x256, .f32⟩
  | .hbm, ⟨57, _⟩ => ⟨S64x4096x256, .f32⟩
  | .hbm, ⟨58, _⟩ => ⟨S64x4096x256, .f32⟩
  | _, _ => ⟨S64x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]

class Facts₀ : Prop where
  reducesTo_S64x4096x256_S64x256_d1 : S64x4096x256.ReducesTo [1] S64x256
  h_S_ : 0 < S_.numel
  bcast_S64x256_S64x1x256_0_2 : S64x256.BroadcastsInDim S64x1x256 (![0, 2] : Fin 2 → Fin S64x1x256.rank)
  bcast_S_S64x1x256 : S_.BroadcastsInDim S64x1x256 (![] : Fin 0 → Fin S64x1x256.rank)
  bcast_S64x1x256_S64x4096x256_0_1_2 : S64x1x256.BroadcastsInDim S64x4096x256 (![0, 1, 2] : Fin 3 → Fin S64x4096x256.rank)
  concatenates_S64x1x256_S64x1x256_S64x1x512_d2 : Shape.Concatenates [S64x1x256, S64x1x256] S64x1x512 2
  bcast_S256_S1x1x256_2 : S256.BroadcastsInDim S1x1x256 (![2] : Fin 1 → Fin S1x1x256.rank)
  bcast_S1x1x256_S64x1x256_0_1_2 : S1x1x256.BroadcastsInDim S64x1x256 (![0, 1, 2] : Fin 3 → Fin S64x1x256.rank)
  bcast_S1x1x256_S64x4096x256_0_1_2 : S1x1x256.BroadcastsInDim S64x4096x256 (![0, 1, 2] : Fin 3 → Fin S64x4096x256.rank)
  dot_S64x1x512_S256x512_S64x1x256_2_1_01_0_n_n_wf : DotDims.WF S64x1x512 S256x512 S64x1x256 [2] [1] [0, 1] [0] [] []
  dot_S64x1x256_S256x256_S64x1x256_2_1_01_0_n_n_wf : DotDims.WF S64x1x256 S256x256 S64x1x256 [2] [1] [0, 1] [0] [] []

variable [Facts₀]

def dot_S64x1x512_S256x512_S64x1x256_2_1_01_0_n_n : DotDims S64x1x512 S256x512 S64x1x256 where
  lhsContracting := [2]
  rhsContracting := [1]
  lhsNonContracting := [0, 1]
  rhsNonContracting := [0]
  lhsBatch := []
  rhsBatch := []
  wf := dot_S64x1x512_S256x512_S64x1x256_2_1_01_0_n_n_wf
def dot_S64x1x256_S256x256_S64x1x256_2_1_01_0_n_n : DotDims S64x1x256 S256x256 S64x1x256 where
  lhsContracting := [2]
  rhsContracting := [1]
  lhsNonContracting := [0, 1]
  rhsNonContracting := [0]
  lhsBatch := []
  rhsBatch := []
  wf := dot_S64x1x256_S256x256_S64x1x256_2_1_01_0_n_n_wf

class Facts : Prop extends Facts₀ where

variable [Facts]
-- ==== Proof.GatedNorm.lean ====
/-
  A normalisation over time with a learned gate: the specification.

  One batch entry is a table `x t f` of 4096 time steps by 256 features. Per feature `f` the column has a mean
  `μ f = (Σ_t x t f) / 4096` and a stabilised deviation `σ f = √((Σ_t (x t f − μ f)²) / 4096 + ε)`. The 512 numbers
  `(μ, σ)` go through a two-layer perceptron — a rectified layer `h j = max(Σ_k s k · W1 j k + b1 j, 0)` from 512 to 256
  and a logistic layer `α f = 1 / (1 + exp(−(Σ_k h k · W2 f k + b2 f)))` from 256 to 256 — and the gate `α f` scales the
  normalised entry inside a hyperbolic tangent: `y t f = γ f · tanh(α f · ((x t f − μ f) / σ f)) + β f`.

  Two arrangements of the same table are stated. `table` divides: the mean and the mean of squared deviations are
  quotients by the pattern of 4096, and the entry is `α · ((x − μ) / σ)`. `tableK` multiplies: the sums are scaled by the
  pattern of 1/4096, the variance is taken as mean of squares minus squared mean and clamped at zero, and the entry is
  `(x − μ) · (α / σ)`. On real entries they are one function (GatedNormLaws.lean).

  Everything is over the extended reals with the operations' exact meanings (`Ideal.div`, `Ideal.sqrt`, `Ideal.exp`,
  `Ideal.tanh`, `Ideal.logistic`); the three float patterns are kept as words and evaluated once, in GatedNormConsts.lean.
-/
import Idealize.ShloMosaic.PureOps.Ideal
import Idealize.ShloMosaic.Lib.ValueIdx

noncomputable section

open scoped BigOperators

namespace Cert.GatedNorm

open Idealize.ShloMosaic Idealize.ShloMosaic.ValueIdx

/-- The number of time steps, as the reference spells it: the pattern of `4096.0`. -/
abbrev steps : EReal := Ideal.ofBits .f32 0x45800000#32
/-- Its reciprocal, as the kernel spells it: the pattern of `2⁻¹²`. -/
abbrev invSteps : EReal := Ideal.ofBits .f32 0x39800000#32
/-- The stabiliser under the square root: the pattern nearest `1e-5`, the same word in both programs. -/
abbrev eps : EReal := Ideal.ofBits .f32 0x3727C5AC#32

/-! ## The column statistics, dividing -/

/-- The mean of a column over time. -/
def mean (z : Fin 4096 → EReal) : EReal := Ideal.div (∑ t, z t) steps

/-- The stabilised deviation of a column: the root of the mean squared deviation plus `ε`. -/
def dev (z : Fin 4096 → EReal) : EReal :=
  Ideal.sqrt (Ideal.div (∑ t, (z t - mean z) * (z t - mean z)) steps + eps)

/-! ## The column statistics, multiplying -/

/-- The mean as the sum scaled by the reciprocal. -/
def meanK (z : Fin 4096 → EReal) : EReal := (∑ t, z t) * invSteps

/-- The deviation from the mean of squares minus the squared mean, clamped at zero. -/
def devK (z : Fin 4096 → EReal) : EReal :=
  Ideal.sqrt (max ((∑ t, z t * z t) * invSteps - meanK z * meanK z) 0 + eps)

/-! ## The perceptron on the statistics -/

/-- The 512 statistics of a batch entry: the 256 means, then the 256 deviations. -/
def stats (μ σ : Fin 256 → EReal) (k : Fin 512) : EReal :=
  if h : k.val < 256 then μ ⟨k.val, h⟩ else σ ⟨k.val - 256, by omega⟩

/-- The rectified layer, 512 to 256: row `j` of `W1` against the statistics, plus the bias, clamped at zero. -/
def hidden (W1 : Fin 256 → Fin 512 → EReal) (b1 : Fin 256 → EReal) (s : Fin 512 → EReal) (j : Fin 256) : EReal :=
  max ((∑ k, s k * W1 j k) + b1 j) 0

/-- The logistic layer, 256 to 256: the gate of feature `f`. -/
def gate (W2 : Fin 256 → Fin 256 → EReal) (b2 : Fin 256 → EReal) (h : Fin 256 → EReal) (f : Fin 256) : EReal :=
  Ideal.logistic ((∑ k, h k * W2 f k) + b2 f)

/-! ## The entry and the table -/

/-- One output entry, the gate applied to the normalised input. -/
def entry (γ β α μ σ x : EReal) : EReal := γ * Ideal.tanh (α * Ideal.div (x - μ) σ) + β

/-- One output entry, the centred input scaled by gate over deviation. -/
def entryK (γ β α μ σ x : EReal) : EReal := γ * Ideal.tanh ((x - μ) * Ideal.div α σ) + β

/-- The output table of one batch entry, dividing. -/
def table (x : Fin 4096 → Fin 256 → EReal) (γ β : Fin 256 → EReal) (W1 : Fin 256 → Fin 512 → EReal) (b1 : Fin 256 → EReal)
    (W2 : Fin 256 → Fin 256 → EReal) (b2 : Fin 256 → EReal) (t : Fin 4096) (f : Fin 256) : EReal :=
  entry (γ f) (β f)
    (gate W2 b2 (hidden W1 b1 (stats (fun f' => mean fun t' => x t' f') (fun f' => dev fun t' => x t' f'))) f)
    (mean fun t' => x t' f) (dev fun t' => x t' f) (x t f)

/-- The output table of one batch entry, multiplying. -/
def tableK (x : Fin 4096 → Fin 256 → EReal) (γ β : Fin 256 → EReal) (W1 : Fin 256 → Fin 512 → EReal) (b1 : Fin 256 → EReal)
    (W2 : Fin 256 → Fin 256 → EReal) (b2 : Fin 256 → EReal) (t : Fin 4096) (f : Fin 256) : EReal :=
  entryK (γ f) (β f)
    (gate W2 b2 (hidden W1 b1 (stats (fun f' => meanK fun t' => x t' f') (fun f' => devK fun t' => x t' f'))) f)
    (meanK fun t' => x t' f) (devK fun t' => x t' f) (x t f)

/-! ## The whole array -/

/-- The result array of `B` batch entries: entry `(b, t, f)` is the table of batch entry `b` at `(t, f)`, the parameter
    arrays read by their coordinates. -/
def result {B : ℕ} (x : (⟨3, ![B, 4096, 256]⟩ : Shape).Idx → EReal) (γ β : (⟨1, ![256]⟩ : Shape).Idx → EReal)
    (W1 : (⟨2, ![256, 512]⟩ : Shape).Idx → EReal) (b1 : (⟨1, ![256]⟩ : Shape).Idx → EReal)
    (W2 : (⟨2, ![256, 256]⟩ : Shape).Idx → EReal) (b2 : (⟨1, ![256]⟩ : Shape).Idx → EReal) :
    (⟨3, ![B, 4096, 256]⟩ : Shape).Idx → EReal := fun i =>
  table (fun t' f' => x (ix3 (i 0 : Fin B) t' f')) (fun f' => γ (ix1 f')) (fun f' => β (ix1 f'))
    (fun j k => W1 (ix2 j k)) (fun j => b1 (ix1 j)) (fun f' k => W2 (ix2 f' k)) (fun f' => b2 (ix1 f'))
    (i 1 : Fin 4096) (i 2 : Fin 256)

/-- The result array at explicit coordinates. -/
theorem result_ix3 {B : ℕ} (x : (⟨3, ![B, 4096, 256]⟩ : Shape).Idx → EReal) (γ β : (⟨1, ![256]⟩ : Shape).Idx → EReal)
    (W1 : (⟨2, ![256, 512]⟩ : Shape).Idx → EReal) (b1 : (⟨1, ![256]⟩ : Shape).Idx → EReal)
    (W2 : (⟨2, ![256, 256]⟩ : Shape).Idx → EReal) (b2 : (⟨1, ![256]⟩ : Shape).Idx → EReal)
    (b : Fin B) (t : Fin 4096) (f : Fin 256) :
    result x γ β W1 b1 W2 b2 (ix3 b t f)
      = table (fun t' f' => x (ix3 b t' f')) (fun f' => γ (ix1 f')) (fun f' => β (ix1 f'))
          (fun j k => W1 (ix2 j k)) (fun j => b1 (ix1 j)) (fun f' k => W2 (ix2 f' k)) (fun f' => b2 (ix1 f')) t f := rfl

end Cert.GatedNorm

end
-- ==== Proof.GatedNormConsts.lean ====
/-
  The float patterns of the gated normalisation, evaluated once.

  `4096.0` denotes the real 4096 and `2⁻¹²` its reciprocal, exactly (both are powers of two); `1.0` denotes 1; the
  stabiliser's pattern denotes a positive real (its exact value, a dyadic rational near `1e-5`, is never needed).
-/
import Idealize.ShloMosaic.PureOps.Ideal
import proofs.«118787_g14611478741530_feedfinal_158_4_alg».proof.Proof.GatedNorm

noncomputable section

namespace Cert.GatedNorm

open Idealize.ShloMosaic

/-- The pattern of `4096.0` denotes the real 4096. -/
theorem steps_eq : steps = ((4096 : ℝ) : EReal) := by
  simp [steps, Ideal.ofBits, Ideal.ieee, -EReal.coe_mul]; norm_num

/-- The pattern of `2⁻¹²` denotes the real 1/4096. -/
theorem invSteps_eq : invSteps = ((1 / 4096 : ℝ) : EReal) := by
  simp [invSteps, Ideal.ofBits, Ideal.ieee, -EReal.coe_mul]; norm_num

/-- The pattern of `1.0` denotes 1. -/
theorem ofBits_one : Ideal.ofBits .f32 0x3F800000#32 = 1 := by
  simp [Ideal.ofBits, Ideal.ieee, -EReal.coe_mul]; norm_num

/-- The stabiliser is a positive real. -/
theorem eps_pos : ∃ e : ℝ, 0 < e ∧ eps = (e : EReal) := by
  refine ⟨(10995116 : ℝ) / 2 ^ 40, by positivity, ?_⟩
  simp [eps, Ideal.ofBits, Ideal.ieee, -EReal.coe_mul]; norm_num

end Cert.GatedNorm

end
-- ==== Proof.LibBatchStats.lean ====
/-
  Batch statistics on the extended reals, for values that are real numbers.

  A batch-normalisation layer needs the mean and the variance of a finite family of numbers. One program
  computes the variance as the mean of the squared deviations, another as the mean of the squares minus
  the square of the mean, a third accumulates the sums tile by tile over a padded, masked index range.
  On the extended reals none of these rearrangements is free: distributing a factor over a sum, or
  cancelling, fails at the infinities. All of them hold for REAL entries, and this module states them
  in the form the programs produce: sums of coerced reals in `EReal`, quotients by a nonzero real
  constant through `Ideal.div`.

  * `coe_sum`            the coercion ℝ → EReal commutes with finite sums;
  * `mul_sum_coe`        a real factor distributes over a sum of reals (false for a negative factor and
                          a sum that meets both infinities);
  * `sum_mul_coe`        the same with the factor on the right;
  * `div_coe_coe`        the quotient of a real by a nonzero real is the real quotient;
  * `mean_coe`           the mean of reals is the real mean;
  * `variance_eq`        mean of squared deviations = mean of squares − square of the mean, when the divisor
                          IS the number of terms;
  * `sum_tiles_masked`   a sum over `T` tiles of width `K`, the entries at positions `≥ N` replaced by `0`,
                          is the sum over the first `N` positions (`N ≤ T * K`): padding plus masking;
  * `sum_rows_cols`      a sum over a flattened `B × N` index (row-major) is the double sum.
-/
import Idealize.ShloMosaic.PureOps.Ideal
import Mathlib.Algebra.BigOperators.Fin
import Mathlib.Data.EReal.Basic
import Mathlib.Tactic

noncomputable section

namespace Cert.Lib.BatchStats

open Idealize.ShloMosaic

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor distributes over a sum of reals. -/
theorem mul_sum_coe {ι : Type*} (s : Finset ι) (x : ℝ) (f : ι → ℝ) :
    (x : EReal) * ∑ i ∈ s, (f i : EReal) = ∑ i ∈ s, (x : EReal) * (f i : EReal) := by
  rw [← coe_sum, ← EReal.coe_mul, Finset.mul_sum, coe_sum]
  simp only [EReal.coe_mul]

/-- The same, the factor on the right. -/
theorem sum_mul_coe {ι : Type*} (s : Finset ι) (x : ℝ) (f : ι → ℝ) :
    (∑ i ∈ s, (f i : EReal)) * (x : EReal) = ∑ i ∈ s, (f i : EReal) * (x : EReal) := by
  rw [← coe_sum, ← EReal.coe_mul, Finset.sum_mul, coe_sum]
  simp only [EReal.coe_mul]

/-- The quotient of a real by a nonzero real is the real quotient. -/
theorem div_coe_coe (a : ℝ) {n : ℝ} (hn : n ≠ 0) :
    Ideal.div (a : EReal) (n : EReal) = ((a / n : ℝ) : EReal) := by
  rw [Ideal.div_coe hn, ← EReal.coe_mul, mul_one_div]

/-- The mean of a family of reals is the real mean. -/
theorem mean_coe {ι : Type*} (s : Finset ι) (z : ι → ℝ) {n : ℝ} (hn : n ≠ 0) :
    Ideal.div (∑ i ∈ s, (z i : EReal)) (n : EReal) = (((∑ i ∈ s, z i) / n : ℝ) : EReal) := by
  rw [← coe_sum, div_coe_coe _ hn]

/-- The variance two ways. For reals `z i`, `i ∈ s`, and a divisor `n` that IS the number of terms:
    the mean of the squared deviations from the mean is the mean of the squares minus the square of the
    mean. (With another divisor the two differ by `(card/n − 1) · mean²`.) -/
theorem variance_eq {ι : Type*} (s : Finset ι) (z : ι → ℝ) {n : ℝ} (hn : n ≠ 0) (hcard : (s.card : ℝ) = n) :
    Ideal.div (∑ i ∈ s, ((z i : EReal) - Ideal.div (∑ j ∈ s, (z j : EReal)) (n : EReal))
        * ((z i : EReal) - Ideal.div (∑ j ∈ s, (z j : EReal)) (n : EReal))) (n : EReal)
      = Ideal.div (∑ i ∈ s, (z i : EReal) * (z i : EReal)) (n : EReal)
        - Ideal.div (∑ j ∈ s, (z j : EReal)) (n : EReal) * Ideal.div (∑ j ∈ s, (z j : EReal)) (n : EReal) := by
  rw [mean_coe s z hn]
  simp only [← EReal.coe_sub, ← EReal.coe_mul]
  rw [mean_coe s _ hn, mean_coe s _ hn, ← EReal.coe_sub]
  congr 1
  have h1 : ∑ i ∈ s, (z i - (∑ j ∈ s, z j) / n) * (z i - (∑ j ∈ s, z j) / n)
      = ∑ i ∈ s, z i * z i - 2 * ((∑ j ∈ s, z j) / n) * (∑ i ∈ s, z i) + (s.card : ℝ) * (((∑ j ∈ s, z j) / n) * ((∑ j ∈ s, z j) / n)) := by
    have : ∀ i, (z i - (∑ j ∈ s, z j) / n) * (z i - (∑ j ∈ s, z j) / n)
        = z i * z i - 2 * ((∑ j ∈ s, z j) / n) * z i + ((∑ j ∈ s, z j) / n) * ((∑ j ∈ s, z j) / n) := fun i => by ring
    simp only [this, Finset.sum_add_distrib, Finset.sum_sub_distrib, ← Finset.mul_sum, Finset.sum_const, nsmul_eq_mul]
    ring
  rw [h1, hcard]
  field_simp
  ring

/-- Padding and masking. A sum over `T` tiles of width `K`, each entry read at its global position
    `t * K + k` and replaced by `0` from position `N` on, is the sum over the first `N` positions. -/
theorem sum_tiles_masked {M : Type*} [AddCommMonoid M] (T K N : ℕ) (hN : N ≤ T * K) (f : ℕ → M) :
    ∑ t : Fin T, ∑ k : Fin K, (if t.val * K + k.val < N then f (t.val * K + k.val) else 0)
      = ∑ i : Fin N, f i.val := by
  have key : ∀ p : Fin T × Fin K, p.1.val * K + p.2.val = (finProdFinEquiv p).val := fun p => by
    rw [finProdFinEquiv_apply_val]; ring
  rw [← Finset.sum_product', Finset.univ_product_univ]
  calc ∑ p : Fin T × Fin K, (if p.1.val * K + p.2.val < N then f (p.1.val * K + p.2.val) else 0)
      = ∑ p : Fin T × Fin K, (fun j : Fin (T * K) => if j.val < N then f j.val else 0) (finProdFinEquiv p) :=
        Finset.sum_congr rfl fun p _ => by simp only [key]
    _ = ∑ j : Fin (T * K), (if j.val < N then f j.val else 0) :=
        Equiv.sum_comp finProdFinEquiv (fun j : Fin (T * K) => if j.val < N then f j.val else 0)
    _ = ∑ i : Fin N, f i.val := by
        rw [Fin.sum_univ_eq_sum_range (fun j => if j < N then f j else 0) (T * K),
          Fin.sum_univ_eq_sum_range (fun j => f j) N, Finset.sum_ite, Finset.sum_const_zero, add_zero]
        congr 1
        ext j
        simp only [Finset.mem_filter, Finset.mem_range]
        exact ⟨fun h => h.2, fun h => ⟨lt_of_lt_of_le h hN, h⟩⟩

/-- A sum over the row-major flattening of a `B × N` index is the double sum. -/
theorem sum_rows_cols {M : Type*} [AddCommMonoid M] (B N : ℕ) (g : ℕ → M) :
    ∑ i : Fin (B * N), g i.val = ∑ b : Fin B, ∑ n : Fin N, g (b.val * N + n.val) := by
  have key : ∀ p : Fin B × Fin N, p.1.val * N + p.2.val = (finProdFinEquiv p).val := fun p => by
    rw [finProdFinEquiv_apply_val]; ring
  rw [← Finset.sum_product', Finset.univ_product_univ]
  calc ∑ i : Fin (B * N), g i.val
      = ∑ p : Fin B × Fin N, (fun j : Fin (B * N) => g j.val) (finProdFinEquiv p) :=
        (Equiv.sum_comp finProdFinEquiv (fun j : Fin (B * N) => g j.val)).symm
    _ = ∑ p : Fin B × Fin N, g (p.1.val * N + p.2.val) := Finset.sum_congr rfl fun p _ => by simp only [key]

end Cert.Lib.BatchStats

end
-- ==== Proof.LibRealValued.lean ====
/-
  Real-valued arrays on the extended reals.

  At the ideal reading a float is an extended real, and the laws that join two arrangements of one
  computation (a factor moved across a sum, a variance computed two ways) hold for REAL entries only.
  A precondition says that the INPUTS are real; this module carries that fact through the host
  operations of a program, so that an intermediate array — a normalised adjacency, a propagated
  embedding, a projected feature matrix — is known to be real without ever being read at an index.

  * `IsReal x`, `IsNonneg x`, `IsPos x`: the extended real `x` is (the coercion of) a real, a real `≥ 0`,
    a real `> 0`; closed under `+`, `-`, `*`, `max`, finite sums, the quotient by a nonzero real; a
    nonnegative plus a positive is positive; the reciprocal square root of a positive is positive.
  * `AllReal v`, `AllNonneg v`, `AllPos v`: every entry is. Preserved by re-indexing (hence by
    `gather`, `broadcast_in_dim`, `slice`, `reshape`), by `pad`, by the pointwise operations, by the host's
    accumulating scatter (the exact sum of the colliding updates), by `dot_general` and by a float sum.
  * `AllReal.exists_real`: a real-valued array IS the coercion of an array of reals.
-/
import Idealize.ShloMosaic.PureOps.Ideal
import Idealize.ShloMosaic.PureOps.Contract
import Mathlib.Tactic

noncomputable section

namespace Cert.Lib.RealValued

open Idealize.ShloMosaic

/-! ## One extended real -/

/-- `x` is a real number. -/
def IsReal (x : EReal) : Prop := ∃ r : ℝ, x = (r : EReal)
/-- `x` is a real number `≥ 0`. -/
def IsNonneg (x : EReal) : Prop := ∃ r : ℝ, 0 ≤ r ∧ x = (r : EReal)
/-- `x` is a real number `> 0`. -/
def IsPos (x : EReal) : Prop := ∃ r : ℝ, 0 < r ∧ x = (r : EReal)

theorem IsPos.isNonneg {x : EReal} (h : IsPos x) : IsNonneg x := let ⟨r, hr, e⟩ := h; ⟨r, hr.le, e⟩
theorem IsNonneg.isReal {x : EReal} (h : IsNonneg x) : IsReal x := let ⟨r, _, e⟩ := h; ⟨r, e⟩
theorem IsPos.isReal {x : EReal} (h : IsPos x) : IsReal x := h.isNonneg.isReal

namespace IsReal

theorem coe (r : ℝ) : IsReal (r : EReal) := ⟨r, rfl⟩
theorem zero : IsReal (0 : EReal) := ⟨0, EReal.coe_zero.symm⟩
theorem one : IsReal (1 : EReal) := ⟨1, EReal.coe_one.symm⟩

theorem add {x y : EReal} (hx : IsReal x) (hy : IsReal y) : IsReal (x + y) := by
  obtain ⟨a, rfl⟩ := hx; obtain ⟨b, rfl⟩ := hy; exact ⟨a + b, (EReal.coe_add a b).symm⟩
theorem sub {x y : EReal} (hx : IsReal x) (hy : IsReal y) : IsReal (x - y) := by
  obtain ⟨a, rfl⟩ := hx; obtain ⟨b, rfl⟩ := hy; exact ⟨a - b, (EReal.coe_sub a b).symm⟩
theorem mul {x y : EReal} (hx : IsReal x) (hy : IsReal y) : IsReal (x * y) := by
  obtain ⟨a, rfl⟩ := hx; obtain ⟨b, rfl⟩ := hy; exact ⟨a * b, (EReal.coe_mul a b).symm⟩
theorem neg {x : EReal} (hx : IsReal x) : IsReal (-x) := by
  obtain ⟨a, rfl⟩ := hx; exact ⟨-a, (EReal.coe_neg a).symm⟩
theorem max {x y : EReal} (hx : IsReal x) (hy : IsReal y) : IsReal (max x y) := by
  obtain ⟨a, rfl⟩ := hx; obtain ⟨b, rfl⟩ := hy
  exact ⟨Max.max a b, (EReal.coe_strictMono.monotone.map_max (a := a) (b := b)).symm⟩

/-- A finite sum of reals is a real. -/
theorem sum {ι : Type*} (s : Finset ι) (f : ι → EReal) (h : ∀ i ∈ s, IsReal (f i)) : IsReal (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

/-- The quotient of a real by a nonzero real constant is a real. -/
theorem div_coe {x : EReal} (hx : IsReal x) {n : ℝ} (hn : n ≠ 0) : IsReal (Ideal.div x (n : EReal)) := by
  rw [Ideal.div_coe hn]; exact hx.mul (coe _)

theorem ne_top {x : EReal} (hx : IsReal x) : x ≠ ⊤ := by obtain ⟨a, rfl⟩ := hx; exact EReal.coe_ne_top a
theorem ne_bot {x : EReal} (hx : IsReal x) : x ≠ ⊥ := by obtain ⟨a, rfl⟩ := hx; exact EReal.coe_ne_bot a

end IsReal

namespace IsNonneg

theorem zero : IsNonneg (0 : EReal) := ⟨0, le_rfl, EReal.coe_zero.symm⟩
theorem add {x y : EReal} (hx : IsNonneg x) (hy : IsNonneg y) : IsNonneg (x + y) := by
  obtain ⟨a, ha, rfl⟩ := hx; obtain ⟨b, hb, rfl⟩ := hy; exact ⟨a + b, add_nonneg ha hb, (EReal.coe_add a b).symm⟩
theorem mul {x y : EReal} (hx : IsNonneg x) (hy : IsNonneg y) : IsNonneg (x * y) := by
  obtain ⟨a, ha, rfl⟩ := hx; obtain ⟨b, hb, rfl⟩ := hy; exact ⟨a * b, mul_nonneg ha hb, (EReal.coe_mul a b).symm⟩
/-- A nonnegative real plus a positive one is positive (a degree count plus the self loop). -/
theorem add_pos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩
theorem sum {ι : Type*} (s : Finset ι) (f : ι → EReal) (h : ∀ i ∈ s, IsNonneg (f i)) : IsNonneg (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

end IsNonneg

namespace IsPos

theorem one : IsPos (1 : EReal) := ⟨1, one_pos, EReal.coe_one.symm⟩
theorem mul {x y : EReal} (hx : IsPos x) (hy : IsPos y) : IsPos (x * y) := by
  obtain ⟨a, ha, rfl⟩ := hx; obtain ⟨b, hb, rfl⟩ := hy; exact ⟨a * b, mul_pos ha hb, (EReal.coe_mul a b).symm⟩
/-- The reciprocal square root of a positive real is a positive real (no corner of `rsqrt` is met). -/
theorem rsqrt {x : EReal} (hx : IsPos x) : IsPos (Ideal.rsqrt x) := by
  obtain ⟨r, hr, rfl⟩ := hx
  rw [Ideal.rsqrt_coe, if_neg (not_lt.2 hr.le), if_neg hr.ne']
  exact ⟨_, inv_pos.2 (Real.sqrt_pos.2 hr), rfl⟩

end IsPos

/-! ## Arrays -/

/-- Every entry is a real. -/
def AllReal {ι : Type*} (v : ι → EReal) : Prop := ∀ i, IsReal (v i)
/-- Every entry is a real `≥ 0`. -/
def AllNonneg {ι : Type*} (v : ι → EReal) : Prop := ∀ i, IsNonneg (v i)
/-- Every entry is a real `> 0`. -/
def AllPos {ι : Type*} (v : ι → EReal) : Prop := ∀ i, IsPos (v i)

theorem AllPos.allNonneg {ι : Type*} {v : ι → EReal} (h : AllPos v) : AllNonneg v := fun i => (h i).isNonneg
theorem AllNonneg.allReal {ι : Type*} {v : ι → EReal} (h : AllNonneg v) : AllReal v := fun i => (h i).isReal
theorem AllPos.allReal {ι : Type*} {v : ι → EReal} (h : AllPos v) : AllReal v := fun i => (h i).isReal

/-- A real-valued array is the coercion of an array of reals. -/
theorem AllReal.exists_real {ι : Type*} {v : ι → EReal} (h : AllReal v) : ∃ r : ι → ℝ, v = fun i => (r i : EReal) :=
  ⟨fun i => (h i).choose, funext fun i => (h i).choose_spec⟩

/-- Any re-indexing of a real-valued array is real-valued. -/
theorem AllReal.reindex {ι κ : Type*} {v : ι → EReal} (h : AllReal v) (g : κ → ι) : AllReal (fun j => v (g j)) :=
  fun j => h (g j)
theorem AllNonneg.reindex {ι κ : Type*} {v : ι → EReal} (h : AllNonneg v) (g : κ → ι) : AllNonneg (fun j => v (g j)) :=
  fun j => h (g j)
theorem AllPos.reindex {ι κ : Type*} {v : ι → EReal} (h : AllPos v) (g : κ → ι) : AllPos (fun j => v (g j)) :=
  fun j => h (g j)

section Ops

variable {s t : Shape} {φ : FTy}

/-! ### Pointwise operations -/

theorem AllReal.addf {x y : FVec Ideal s φ} (hx : AllReal x) (hy : AllReal y) : AllReal (addf x y) :=
  fun i => (hx i).add (hy i)
theorem AllReal.subf {x y : FVec Ideal s φ} (hx : AllReal x) (hy : AllReal y) : AllReal (subf x y) :=
  fun i => (hx i).sub (hy i)
theorem AllReal.mulf {x y : FVec Ideal s φ} (hx : AllReal x) (hy : AllReal y) : AllReal (mulf x y) :=
  fun i => (hx i).mul (hy i)
theorem AllReal.maximumf {x y : FVec Ideal s φ} (hx : AllReal x) (hy : AllReal y) : AllReal (maximumf x y) :=
  fun i => (hx i).max (hy i)
theorem AllNonneg.add_pos {x y : FVec Ideal s φ} (hx : AllNonneg x) (hy : AllPos y) : AllPos (Idealize.ShloMosaic.addf x y) :=
  fun i => (hx i).add_pos (hy i)
theorem AllPos.mulf {x y : FVec Ideal s φ} (hx : AllPos x) (hy : AllPos y) : AllPos (Idealize.ShloMosaic.mulf x y) :=
  fun i => (hx i).mul (hy i)
/-- The host's reciprocal square root of a positive array is positive. -/
theorem AllPos.hostRsqrt {x : FVec Ideal s φ} (hx : AllPos x) : AllPos (Host.rsqrt x) :=
  fun i => (hx i).rsqrt
/-- The host's quotient by a splat nonzero real constant. -/
theorem AllReal.hostDivf_const {x y : FVec Ideal s φ} (hx : AllReal x) {n : ℝ} (hn : n ≠ 0) (hy : ∀ i, y i = (n : EReal)) :
    AllReal (Host.divf x y) :=
  fun i => by
    show IsReal (Ideal.div (x i) (y i))
    rw [hy i]; exact (hx i).div_coe hn

/-! ### Layout operations -/

theorem AllReal.broadcastInDim {x : s.Idx → EReal} (hx : AllReal x) (dims : Fin s.rank → Fin t.rank)
    (h : s.BroadcastsInDim t dims) : AllReal (broadcastInDim t dims h x) := fun _ => hx _
theorem AllPos.broadcastInDim {x : s.Idx → EReal} (hx : AllPos x) (dims : Fin s.rank → Fin t.rank)
    (h : s.BroadcastsInDim t dims) : AllPos (Idealize.ShloMosaic.broadcastInDim t dims h x) := fun _ => hx _
theorem AllReal.extractStridedSlice {x : s.Idx → EReal} (hx : AllReal x) (off : Fin s.rank → Nat) (h : s.Slices off t) :
    AllReal (extractStridedSlice t off x h) := fun _ => hx _
theorem AllReal.shapeCast {x : s.Idx → EReal} (hx : AllReal x) (h : s.ShapeCasts t) :
    AllReal (shapeCast t x h) := fun _ => hx _
/-- A padded array is real-valued when the array and the padding value are. -/
theorem AllReal.pad {x : s.Idx → EReal} (hx : AllReal x) (lo hi interior : Fin s.rank → Nat) {u : Shape} {v : u.Idx → EReal}
    (hv : AllReal v) (h : s.Pads lo hi interior t) (hu : 0 < u.numel) : AllReal (pad t lo hi interior x v h hu) := fun j => by
  unfold Idealize.ShloMosaic.pad
  split_ifs
  · exact hx _
  · exact hv _

/-! ### Gather, scatter-add, contraction, sum -/

/-- A gather reads entries of its operand. -/
theorem AllReal.gather {si : Shape} {w : Nat} {x : s.Idx → EReal} (hx : AllReal x) (d : GatherDims s si t) (idx : IVec si w) :
    AllReal (Host.gather d x idx) := fun _ => hx _
theorem AllPos.gather {si : Shape} {w : Nat} {x : s.Idx → EReal} (hx : AllPos x) (d : GatherDims s si t) (idx : IVec si w) :
    AllPos (Host.gather d x idx) := fun _ => hx _

/-- The host's accumulating scatter at the ideal reading is each operand entry plus the exact sum of the updates
    landing on it: real-valued when operand and updates are, wherever the indices point. -/
theorem AllReal.scatterAdd {si u : Shape} {w : Nat} (d : ScatterDims s si u) {x : FVec Ideal s φ} (hx : AllReal x)
    (idx : IVec si w) {upd : FVec Ideal u φ} (hu : AllReal upd) : AllReal (Host.scatterAdd d x idx upd) := fun i => by
  show IsReal (x i + ∑ j ∈ Finset.univ.filter (fun j => d.resultIdx? j idx = some i), upd j)
  exact (hx i).add (IsReal.sum _ _ fun j _ => hu j)
/-- … and nonnegative when both are (a degree count). -/
theorem AllNonneg.scatterAdd {si u : Shape} {w : Nat} (d : ScatterDims s si u) {x : FVec Ideal s φ} (hx : AllNonneg x)
    (idx : IVec si w) {upd : FVec Ideal u φ} (hu : AllNonneg upd) : AllNonneg (Host.scatterAdd d x idx upd) := fun i => by
  show IsNonneg (x i + ∑ j ∈ Finset.univ.filter (fun j => d.resultIdx? j idx = some i), upd j)
  exact (hx i).add (IsNonneg.sum _ _ fun j _ => hu j)

/-- The host's `dot_general` of real-valued operands is real-valued: a finite sum of products. -/
theorem AllReal.dotGeneral {sl sr so : Shape} {φ₁ φ₂ : FTy} (d : DotDims sl sr so) (prec : Option ContractPrecision)
    {l : FVec Ideal sl φ₁} (hl : AllReal l) {r : FVec Ideal sr φ₂} (hr : AllReal r) :
    AllReal (Host.dotGeneral d prec l r) := fun j => by
  show IsReal ((0 : EReal) + ∑ k : d.contr.Idx, l (d.lhsIdx j k) * r (d.rhsIdx j k))
  exact IsReal.zero.add (IsReal.sum _ _ fun k _ => (hl _).mul (hr _))

/-- The host's float sum of a real-valued array from a real initial value is real-valued. -/
theorem AllReal.reduceAdd {axes : List (Fin s.rank)} {u : Shape} {x : FVec Ideal s φ} (hx : AllReal x)
    {init : u.Idx → Ideal φ} (hi : AllReal init) (h : s.ReducesTo axes t) (hu : 0 < u.numel) :
    AllReal (Host.reduceAdd x init h hu) := fun j => by
  show IsReal (init (Shape.Idx.first hu) + ∑ i ∈ Finset.univ.filter (fun i => h.drop i = j), x i)
  exact (hi _).add (IsReal.sum _ _ fun i _ => hx i)

end Ops

end Cert.Lib.RealValued

end
-- ==== Proof.GatedNormLaws.lean ====
/-
  The two arrangements of the gated normalisation agree on real entries.

  The multiplying arrangement differs from the dividing one in three places. It scales a sum by the pattern of
  `1/4096` where the other divides by the pattern of `4096`: the same thing for EVERY extended real, the divisor
  being a nonzero real. It takes the variance as mean of squares minus squared mean, clamped at zero, where the
  other takes the mean squared deviation: equal for a column of reals (the variance identity), and the clamp is
  idle because a mean of real squares is a nonnegative real. And it forms `(x − μ) · (α / σ)` where the other
  forms `α · ((x − μ) / σ)`: the deviation `σ` of a real column is a POSITIVE real (the root of a nonnegative real
  plus the positive stabiliser), so both quotients are products with the real `1/σ`, and the rest is
  commutativity and associativity of the extended reals' product, which hold at the infinities too — the gate
  `α` need not be real.
-/
import proofs.«118787_g14611478741530_feedfinal_158_4_alg».proof.Proof.GatedNorm
import proofs.«118787_g14611478741530_feedfinal_158_4_alg».proof.Proof.GatedNormConsts
import proofs.«118787_g14611478741530_feedfinal_158_4_alg».proof.Proof.LibBatchStats
import proofs.«118787_g14611478741530_feedfinal_158_4_alg».proof.Proof.LibRealValued

noncomputable section

open scoped BigOperators

namespace Cert.GatedNorm

open Idealize.ShloMosaic Cert.Lib.RealValued Cert.Lib.BatchStats

/-! ## Scaling by the reciprocal is dividing -/

/-- Scaling by the pattern of `1/4096` is dividing by the pattern of `4096`, for every extended real: the divisor
    is a nonzero real, so the quotient is the product with its real reciprocal. -/
theorem mul_invSteps (a : EReal) : a * invSteps = Ideal.div a steps := by
  rw [invSteps_eq, steps_eq, Ideal.div_coe (by norm_num : (4096 : ℝ) ≠ 0)]

/-- The two means are one, on any column. -/
theorem meanK_eq_mean (z : Fin 4096 → EReal) : meanK z = mean z := mul_invSteps _

/-! ## A column of reals -/

/-- The mean of a real column is the real mean. -/
theorem mean_coe_col (r : Fin 4096 → ℝ) :
    mean (fun t => (r t : EReal)) = (((∑ t, r t) / 4096 : ℝ) : EReal) := by
  unfold mean
  rw [steps_eq]
  exact mean_coe Finset.univ r (by norm_num)

/-- The mean squared deviation of a real column is a real: the real mean of the real squared deviations. -/
theorem msd_coe_col (r : Fin 4096 → ℝ) :
    Ideal.div (∑ t, ((r t : EReal) - mean fun t' => (r t' : EReal)) * ((r t : EReal) - mean fun t' => (r t' : EReal))) steps
      = (((∑ t, (r t - (∑ t', r t') / 4096) * (r t - (∑ t', r t') / 4096)) / 4096 : ℝ) : EReal) := by
  rw [mean_coe_col r, steps_eq]
  simp only [← EReal.coe_sub, ← EReal.coe_mul]
  exact mean_coe Finset.univ _ (by norm_num)

/-- Mean of squares minus squared mean, as the multiplying arrangement spells it, is the mean squared deviation:
    the variance identity, the divisor 4096 being the number of terms. -/
theorem msdK_eq_col (r : Fin 4096 → ℝ) :
    (∑ t, (r t : EReal) * (r t : EReal)) * invSteps
        - meanK (fun t' => (r t' : EReal)) * meanK (fun t' => (r t' : EReal))
      = Ideal.div (∑ t, ((r t : EReal) - mean fun t' => (r t' : EReal)) * ((r t : EReal) - mean fun t' => (r t' : EReal))) steps := by
  rw [mul_invSteps, meanK_eq_mean]
  unfold mean
  rw [steps_eq]
  exact (variance_eq Finset.univ r (by norm_num) (by simp)).symm

/-- The real mean squared deviation is nonnegative: a sum of squares over a positive count. -/
theorem msd_nonneg (r : Fin 4096 → ℝ) :
    0 ≤ (∑ t, (r t - (∑ t', r t') / 4096) * (r t - (∑ t', r t') / 4096)) / 4096 :=
  div_nonneg (Finset.sum_nonneg fun t _ => mul_self_nonneg _) (by norm_num)

/-- The two deviations are one on a column of reals: the variance identity, and the clamp at zero is idle on a
    nonnegative real. -/
theorem devK_eq_dev (z : Fin 4096 → EReal) (hz : ∀ t, IsReal (z t)) : devK z = dev z := by
  obtain ⟨r, rfl⟩ := AllReal.exists_real hz
  unfold devK dev
  rw [msdK_eq_col r, msd_coe_col r, max_eq_left (EReal.coe_nonneg.2 (msd_nonneg r))]

/-- The deviation of a column of reals is a positive real: the root of a nonnegative real plus the positive
    stabiliser. -/
theorem dev_pos (z : Fin 4096 → EReal) (hz : ∀ t, IsReal (z t)) : IsPos (dev z) := by
  obtain ⟨r, rfl⟩ := AllReal.exists_real hz
  obtain ⟨e, he, hE⟩ := eps_pos
  have hpos : 0 < (∑ t, (r t - (∑ t', r t') / 4096) * (r t - (∑ t', r t') / 4096)) / 4096 + e :=
    add_pos_of_nonneg_of_pos (msd_nonneg r) he
  unfold dev
  rw [msd_coe_col r, hE, ← EReal.coe_add, Ideal.sqrt_coe, if_neg (not_lt.2 hpos.le)]
  exact ⟨_, Real.sqrt_pos.2 hpos, rfl⟩

/-! ## The entry -/

/-- Over a positive real deviation both quotients are products with its real reciprocal, and the two entries differ
    by commutativity and associativity of the product alone; the gate and the centred input may be infinite. -/
theorem entryK_eq_entry (γ β α μ x : EReal) {σ : EReal} (hσ : IsPos σ) :
    entryK γ β α μ σ x = entry γ β α μ σ x := by
  obtain ⟨s, hs, rfl⟩ := hσ
  unfold entryK entry
  rw [Ideal.div_coe hs.ne', Ideal.div_coe hs.ne', mul_left_comm]

/-! ## The table -/

/-- On a table of real numbers the multiplying arrangement is the dividing one. -/
theorem tableK_eq_table (x : Fin 4096 → Fin 256 → EReal) (hx : ∀ t f, IsReal (x t f)) (γ β : Fin 256 → EReal)
    (W1 : Fin 256 → Fin 512 → EReal) (b1 : Fin 256 → EReal) (W2 : Fin 256 → Fin 256 → EReal) (b2 : Fin 256 → EReal)
    (t : Fin 4096) (f : Fin 256) :
    tableK x γ β W1 b1 W2 b2 t f = table x γ β W1 b1 W2 b2 t f := by
  have hm : (fun f' => meanK fun t' => x t' f') = fun f' => mean fun t' => x t' f' :=
    funext fun f' => meanK_eq_mean _
  have hd : (fun f' => devK fun t' => x t' f') = fun f' => dev fun t' => x t' f' :=
    funext fun f' => devK_eq_dev _ fun t' => hx t' f'
  unfold tableK table
  rw [hm, hd, meanK_eq_mean, devK_eq_dev _ fun t' => hx t' f]
  exact entryK_eq_entry _ _ _ _ _ (dev_pos _ fun t' => hx t' f)

end Cert.GatedNorm

end
-- ==== Proof.LibRowsDot.lean ====
/-
  A matrix product that contracts the second axis of BOTH operands, read at an index, on the extended reals.

  For an M × K matrix A and an N × K matrix B the product A · Bᵀ has at (p, j) the entry Σ k, A (p, k) · B (j, k): the
  left operand is read at (row of the result, contracted coordinate) and the right at (column of the result, contracted
  coordinate). `RowsDot` says this of a dot's dimension numbers (one contracted axis of extent K and the four
  coordinate facts); the library's `DotDims.transposedRhs` satisfies it (`rowsDot_transposedRhs`), and a printed dot
  with those dimension numbers differs from it only in the proof of its well-formedness. `RowsDot.matmul_apply` reads the
  vector unit's product into the zero accumulator, `RowsDot.dotGeneral_apply` the host's product, as that sum.
-/
import Idealize.ShloMosaic.Lib.ValueIdx
import Idealize.ShloMosaic.PureOps.Ideal.Laws

noncomputable section

open scoped BigOperators

namespace Cert.LibRowsDot

open Idealize.ShloMosaic Idealize.ShloMosaic.ValueIdx

/-- What makes a dot the product of an M × K matrix with the transpose of an N × K matrix: one contracted axis of
    extent K; the left operand is read at (row of the result, contracted coordinate), the right at (column of the
    result, contracted coordinate). -/
structure RowsDot {M K N : ℕ} (d : DotDims ⟨2, ![M, K]⟩ ⟨2, ![N, K]⟩ ⟨2, ![M, N]⟩) : Prop where
  hr : d.contr.rank = 1
  hs : d.contr.size ⟨0, by omega⟩ = K
  hl0 : ∀ (i : (⟨2, ![M, N]⟩ : Shape).Idx) (q : d.contr.Idx), (d.lhsIdx i q 0).val = (i 0).val
  hl1 : ∀ (i : (⟨2, ![M, N]⟩ : Shape).Idx) (q : d.contr.Idx), (d.lhsIdx i q 1).val = (q ⟨0, by omega⟩).val
  hr0 : ∀ (i : (⟨2, ![M, N]⟩ : Shape).Idx) (q : d.contr.Idx), (d.rhsIdx i q 0).val = (i 1).val
  hr1 : ∀ (i : (⟨2, ![M, N]⟩ : Shape).Idx) (q : d.contr.Idx), (d.rhsIdx i q 1).val = (q ⟨0, by omega⟩).val

/-- The dimension numbers "left contracted on axis 1, right contracted on axis 1, no batch axis" are rows with rows. -/
theorem rowsDot_transposedRhs (M K N : ℕ) : RowsDot (DotDims.transposedRhs M K N) where
  hr := rfl
  hs := rfl
  hl0 := fun _ _ => rfl
  hl1 := fun _ _ => rfl
  hr0 := fun _ _ => rfl
  hr1 := fun _ _ => rfl

/-- The sum over a rows-with-rows dot's contraction index is the sum over `Fin K` of the products along row p of the left
    operand and row j of the right. -/
theorem RowsDot.sum_eq {M K N : ℕ} {d : DotDims ⟨2, ![M, K]⟩ ⟨2, ![N, K]⟩ ⟨2, ![M, N]⟩} (hd : RowsDot d)
    (lhs : (⟨2, ![M, K]⟩ : Shape).Idx → EReal) (rhs : (⟨2, ![N, K]⟩ : Shape).Idx → EReal) (p : Fin M) (j : Fin N) :
    ∑ k : d.contr.Idx, lhs (d.lhsIdx (ix2 p j) k) * rhs (d.rhsIdx (ix2 p j) k) = ∑ k : Fin K, lhs (ix2 p k) * rhs (ix2 j k) := by
  rw [← Equiv.sum_comp (contrEquiv1 d K hd.hr hd.hs).symm]
  refine Finset.sum_congr rfl fun k _ => ?_
  have hk := contrEquiv1_symm_val d K hd.hr hd.hs k
  have el : d.lhsIdx (ix2 p j) ((contrEquiv1 d K hd.hr hd.hs).symm k) = ix2 p k := funext fun a => Fin.ext (by
    match a with
    | ⟨0, _⟩ => exact hd.hl0 _ _
    | ⟨1, _⟩ => exact (hd.hl1 _ _).trans hk)
  have er : d.rhsIdx (ix2 p j) ((contrEquiv1 d K hd.hr hd.hs).symm k) = ix2 j k := funext fun a => Fin.ext (by
    match a with
    | ⟨0, _⟩ => exact hd.hr0 _ _
    | ⟨1, _⟩ => exact (hd.hr1 _ _).trans hk)
  rw [el, er]

/-- The matrix product into the zero accumulator of a rows-with-rows dot, at (p, j), is Σ k, lhs (p, k) · rhs (j, k). -/
theorem RowsDot.matmul_apply {M K N : ℕ} {φ₁ φ₂ : FTy} {d : DotDims ⟨2, ![M, K]⟩ ⟨2, ![N, K]⟩ ⟨2, ![M, N]⟩}
    (hd : RowsDot d) (lhs : FVec Ideal ⟨2, ![M, K]⟩ φ₁) (rhs : FVec Ideal ⟨2, ![N, K]⟩ φ₂) (p : Fin M) (j : Fin N) :
    matmul d none lhs rhs (constant ⟨2, ![M, N]⟩ .f32 0x00000000#32) (ix2 p j)
      = ∑ k : Fin K, lhs (ix2 p k) * rhs (ix2 j k) := by
  show FloatOps.matmul d none lhs rhs (constant ⟨2, ![M, N]⟩ .f32 0x00000000#32) (ix2 p j) = _
  rw [Ideal.matmul_constant_zero_apply]
  exact hd.sum_eq lhs rhs p j

/-- The host's product of a rows-with-rows dot, at (p, j), is Σ k, lhs (p, k) · rhs (j, k). -/
theorem RowsDot.dotGeneral_apply {M K N : ℕ} {φ₁ φ₂ : FTy} {d : DotDims ⟨2, ![M, K]⟩ ⟨2, ![N, K]⟩ ⟨2, ![M, N]⟩}
    (hd : RowsDot d) (lhs : FVec Ideal ⟨2, ![M, K]⟩ φ₁) (rhs : FVec Ideal ⟨2, ![N, K]⟩ φ₂) (p : Fin M) (j : Fin N) :
    FloatOps.dotGeneral d none .single lhs rhs (ix2 p j) = ∑ k : Fin K, lhs (ix2 p k) * rhs (ix2 j k) := by
  rw [Ideal.dotGeneral_apply]
  exact hd.sum_eq lhs rhs p j

end Cert.LibRowsDot

end
-- ==== Proof.KernelBlock.lean ====
/-
  The kernel's block at an index is the multiplying arrangement of the gated normalisation of the block's rows.
-/
import proofs.«118787_g14611478741530_feedfinal_158_4_alg».proof.Proof.Gen.KernelIdeal.Value
import proofs.«118787_g14611478741530_feedfinal_158_4_alg».proof.Proof.GatedNorm
import proofs.«118787_g14611478741530_feedfinal_158_4_alg».proof.Proof.LibRowsDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Block

open Idealize.ShloMosaic Idealize.ShloMosaic.ValueIdx Cert.KernelIdeal Cert.KernelIdeal.Gen Cert.GatedNorm

/-! ## Layout operations of the body, read at an index -/

/-- Inserting a unit axis keeps the row-major position: the cast of a [2,256] vector to [2,1,256], read at
    `(bb, 0, f)`, is the vector at `(bb, f)`. -/
theorem cast_addUnit_at {α : Type} (v : S2x256.Idx → α) (h : S2x256.ShapeCasts S2x1x256) (bb : Fin 2) (f : Fin 256) :
    shapeCast S2x1x256 v h (ix3 bb (0 : Fin 1) f) = v (ix2 bb f) :=
  shapeCast_apply v h _ _ (by
    rw [Shape.rowMajor_val_two, Shape.rowMajor_val_three]
    show bb.val * 256 + f.val = (bb.val * 1 + 0) * 256 + f.val
    omega)

/-- Dropping the unit axis likewise: the cast of a [2,1,256] vector to [2,256], read at `(bb, f)`, is the vector at
    `(bb, 0, f)`. -/
theorem cast_dropUnit_at {α : Type} (v : S2x1x256.Idx → α) (h : S2x1x256.ShapeCasts S2x256) (bb : Fin 2) (f : Fin 256) :
    shapeCast S2x256 v h (ix2 bb f) = v (ix3 bb (0 : Fin 1) f) :=
  shapeCast_apply v h _ _ (by
    rw [Shape.rowMajor_val_two, Shape.rowMajor_val_three]
    show (bb.val * 1 + 0) * 256 + f.val = bb.val * 256 + f.val
    omega)

/-- A one-row matrix, cast to its own shape and broadcast down two rows, reads its only row at every row. -/
theorem row_broadcast_at {α : Type} (v : S1x256.Idx → α) (hc : S1x256.ShapeCasts S1x256) (hb : S1x256.Broadcasts S2x256)
    (bb : Fin 2) (j : Fin 256) :
    broadcastTo S2x256 (shapeCast S1x256 v hc) hb (ix2 bb j) = v (ix2 (0 : Fin 1) j) := by
  rw [shapeCast_self]
  exact broadcastTo_apply v hb _ _ (fun a => match a with | ⟨0, _⟩ => rfl | ⟨1, _⟩ => rfl)

/-- The sum over the time axis of a [2,4096,256] vector, read at `(bb, f)`, is the sum over the 4096 time steps of the
    vector at `(bb, t, f)`: a reduction over one axis is the sum over that axis's coordinates. -/
theorem laneSum_at (v : FVec Ideal S2x4096x256 .f32) (bb : Fin 2) (f : Fin 256) :
    multiReduction (F := Ideal) .add [1] S2x256 v 0x00000000#32 reduces_S2x4096x256_S2x256 (.inl rfl) rfl (ix2 bb f)
      = ∑ t : Fin 4096, v (ix3 bb t f) :=
  (Ideal.multiReduction_add_single v 0x00000000#32 reduces_S2x4096x256_S2x256 (.inl rfl) rfl (ix2 bb f)).trans
    (Finset.sum_congr rfl fun t _ => congrArg v (funext fun a =>
      match a with | ⟨0, _⟩ => rfl | ⟨1, _⟩ => rfl | ⟨2, _⟩ => rfl))

/-! ## The body's statistics, named

The payload that carries gate over deviation is one long term over the loads. Its sub-terms are named here, each over the
ones before it, so that every later step reads one operation at an index. -/

/-- The body's deviation row: the root of the clamped mean of squares minus squared mean, plus the stabiliser. -/
def devRow (v0 : Vec Ideal S2x4096x256 .f32) : FVec Ideal S2x1x256 .f32 :=
  sqrt (addf (maximumf (subf
      (mulf (shapeCast S2x1x256 (multiReduction (F := Ideal) .add [1] S2x256 (mulf v0 v0) 0x00000000#32
          reduces_S2x4096x256_S2x256 (.inl rfl) rfl) shapeCasts_S2x256_S2x1x256)
        (broadcast S2x1x256 (Scalar.ofBits .f32 0x39800000#32)))
      (mulf (k0_pay2 v0) (k0_pay2 v0)))
    (broadcast S2x1x256 (Scalar.ofBits .f32 0x00000000#32)))
    (broadcast S2x1x256 (Scalar.ofBits .f32 0x3727C5AC#32)))

/-- The body's 512 statistics per batch entry: the mean row beside the deviation row. -/
def statsRow (v0 : Vec Ideal S2x4096x256 .f32) : FVec Ideal S2x512 .f32 :=
  concatenate S2x512 1 [⟨S2x256, shapeCast S2x256 (k0_pay2 v0) shapeCasts_S2x1x256_S2x256⟩,
    ⟨S2x256, shapeCast S2x256 (devRow v0) shapeCasts_S2x1x256_S2x256⟩] concatenates_S2x256_S2x256_S2x512_d1

/-- The body's rectified layer. -/
def hiddenRow (v0 : Vec Ideal S2x4096x256 .f32) (v20 : Vec Ideal S256x512 .f32) (v22 : Vec Ideal S1x256 .f32) :
    FVec Ideal S2x256 .f32 :=
  maximumf (addf (matmul (φ₁ := .f32) (φ₂ := .f32) dot_S2x512_S256x512_S2x256_1_1_0_0_n_n none (statsRow v0) v20 (constant S2x256 .f32 0x00000000#32))
      (broadcastTo S2x256 (shapeCast S1x256 v22 shapeCasts_S1x256_S1x256) broadcasts_S1x256_S2x256))
    (broadcast S2x256 (Scalar.ofBits .f32 0x00000000#32))

/-- The body's logistic layer. -/
def gateRow (v0 : Vec Ideal S2x4096x256 .f32) (v20 : Vec Ideal S256x512 .f32) (v22 : Vec Ideal S1x256 .f32)
    (v28 : Vec Ideal S256x256 .f32) (v30 : Vec Ideal S1x256 .f32) : FVec Ideal S2x256 .f32 :=
  logistic (addf (matmul (φ₁ := .f32) (φ₂ := .f32) dot_S2x256_S256x256_S2x256_1_1_0_0_n_n none (hiddenRow v0 v20 v22) v28 (constant S2x256 .f32 0x00000000#32))
    (broadcastTo S2x256 (shapeCast S1x256 v30 shapeCasts_S1x256_S1x256) broadcasts_S1x256_S2x256))

/-- The payload is the gate row divided by the deviation row, with the unit axis put back. -/
theorem pay3_eq (v0 : Vec Ideal S2x4096x256 .f32) (v20 : Vec Ideal S256x512 .f32) (v22 : Vec Ideal S1x256 .f32)
    (v28 : Vec Ideal S256x256 .f32) (v30 : Vec Ideal S1x256 .f32) :
    k0_pay3 (F := Ideal) v0 v20 v22 v28 v30
      = shapeCast S2x1x256 (divf (gateRow v0 v20 v22 v28 v30) (shapeCast S2x256 (devRow v0) shapeCasts_S2x1x256_S2x256))
          shapeCasts_S2x256_S2x1x256 := rfl

/-! ## The statistics at an index -/

/-- The body's mean row at `(bb, 0, f)` is the scaled sum of column `f` of batch entry `bb`. -/
theorem meanRow_at (v0 : Vec Ideal S2x4096x256 .f32) (bb : Fin 2) (f : Fin 256) :
    k0_pay2 (F := Ideal) v0 (ix3 bb (0 : Fin 1) f) = meanK fun t' => v0 (ix3 bb t' f) := by
  show shapeCast S2x1x256 (multiReduction (F := Ideal) .add [1] S2x256 v0 0x00000000#32
      reduces_S2x4096x256_S2x256 (.inl rfl) rfl) shapeCasts_S2x256_S2x1x256 (ix3 bb (0 : Fin 1) f) * invSteps = _
  rw [cast_addUnit_at, laneSum_at]
  rfl

/-- The body's deviation row at `(bb, 0, f)` is the deviation of column `f` of batch entry `bb`, from the mean of squares
    minus the squared mean clamped at zero; the zero word denotes zero. -/
theorem devRow_at (v0 : Vec Ideal S2x4096x256 .f32) (bb : Fin 2) (f : Fin 256) :
    devRow v0 (ix3 bb (0 : Fin 1) f) = devK fun t' => v0 (ix3 bb t' f) := by
  show Ideal.sqrt (max (shapeCast S2x1x256 (multiReduction (F := Ideal) .add [1] S2x256 (mulf v0 v0) 0x00000000#32
        reduces_S2x4096x256_S2x256 (.inl rfl) rfl) shapeCasts_S2x256_S2x1x256 (ix3 bb (0 : Fin 1) f) * invSteps
      - k0_pay2 (F := Ideal) v0 (ix3 bb (0 : Fin 1) f) * k0_pay2 (F := Ideal) v0 (ix3 bb (0 : Fin 1) f))
      (Ideal.ofBits .f32 0x00000000#32) + eps) = _
  rw [cast_addUnit_at, laneSum_at, meanRow_at, Ideal.ofBits_zero_f32]
  rfl

/-- The body's statistics row at `(bb, k)`: the first 256 entries are the means, the last 256 the deviations — a
    two-piece concatenation read in the piece that holds the coordinate. -/
theorem statsRow_at (v0 : Vec Ideal S2x4096x256 .f32) (bb : Fin 2) (k : Fin 512) :
    statsRow v0 (ix2 bb k)
      = stats (fun f' => meanK fun t' => v0 (ix3 bb t' f')) (fun f' => devK fun t' => v0 (ix3 bb t' f')) k := by
  unfold statsRow stats
  by_cases hk : k.val < 256
  · rw [dif_pos hk]
    refine (concatenate_pair_apply_left 1 _ _ concatenates_S2x256_S2x256_S2x512_d1 (ix2 bb k) rfl (ix2 bb ⟨k.val, hk⟩)
      (fun b => match b with | ⟨0, _⟩ => rfl | ⟨1, _⟩ => rfl)).trans ?_
    rw [cast_dropUnit_at, meanRow_at]
  · rw [dif_neg hk]
    refine (concatenate_pair_apply_right 1 _ _ concatenates_S2x256_S2x256_S2x512_d1 (ix2 bb k) rfl rfl
      (ix2 bb ⟨k.val - 256, by omega⟩)
      (fun b hb => match b, hb with | ⟨0, _⟩, _ => rfl | ⟨1, _⟩, hb => absurd rfl hb)
      (by show (k.val - 256) + 256 = k.val; omega)).trans ?_
    rw [cast_dropUnit_at, devRow_at]

/-! ## The two matrix products contract the second axis of both operands -/

/-- The first layer's product: a [2,512] matrix against the rows of a [256,512] matrix. -/
theorem rowsDot_first : Cert.LibRowsDot.RowsDot dot_S2x512_S256x512_S2x256_1_1_0_0_n_n :=
  Cert.LibRowsDot.rowsDot_transposedRhs 2 512 256

/-- The second layer's product: a [2,256] matrix against the rows of a [256,256] matrix. -/
theorem rowsDot_second : Cert.LibRowsDot.RowsDot dot_S2x256_S256x256_S2x256_1_1_0_0_n_n :=
  Cert.LibRowsDot.rowsDot_transposedRhs 2 256 256

/-! ## The perceptron at an index -/

/-- The body's rectified layer at `(bb, j)`: row `j` of the first weight matrix against the statistics of batch entry
    `bb`, plus the bias, clamped at zero. -/
theorem hiddenRow_at (v0 : Vec Ideal S2x4096x256 .f32) (v20 : Vec Ideal S256x512 .f32) (v22 : Vec Ideal S1x256 .f32)
    (bb : Fin 2) (j : Fin 256) :
    hiddenRow v0 v20 v22 (ix2 bb j)
      = hidden (fun j' k => v20 (ix2 j' k)) (fun j' => v22 (ix2 (0 : Fin 1) j'))
          (stats (fun f' => meanK fun t' => v0 (ix3 bb t' f')) (fun f' => devK fun t' => v0 (ix3 bb t' f'))) j := by
  have hm : matmul (φ₁ := .f32) (φ₂ := .f32) dot_S2x512_S256x512_S2x256_1_1_0_0_n_n none (statsRow v0) v20
      (constant S2x256 .f32 0x00000000#32) (ix2 bb j) = ∑ k : Fin 512, statsRow v0 (ix2 bb k) * v20 (ix2 j k) :=
    rowsDot_first.matmul_apply (φ₁ := .f32) (φ₂ := .f32) (statsRow v0) v20 bb j
  show max (matmul (φ₁ := .f32) (φ₂ := .f32) dot_S2x512_S256x512_S2x256_1_1_0_0_n_n none (statsRow v0) v20
        (constant S2x256 .f32 0x00000000#32) (ix2 bb j)
      + broadcastTo S2x256 (shapeCast S1x256 v22 shapeCasts_S1x256_S1x256) broadcasts_S1x256_S2x256 (ix2 bb j))
      (Ideal.ofBits .f32 0x00000000#32) = _
  rw [hm, row_broadcast_at, Ideal.ofBits_zero_f32]
  simp only [statsRow_at]
  rfl

/-- The body's logistic layer at `(bb, f)`: row `f` of the second weight matrix against the rectified layer of batch
    entry `bb`, plus the bias, through the logistic function. -/
theorem gateRow_at (v0 : Vec Ideal S2x4096x256 .f32) (v20 : Vec Ideal S256x512 .f32) (v22 : Vec Ideal S1x256 .f32)
    (v28 : Vec Ideal S256x256 .f32) (v30 : Vec Ideal S1x256 .f32) (bb : Fin 2) (f : Fin 256) :
    gateRow v0 v20 v22 v28 v30 (ix2 bb f)
      = gate (fun f' k => v28 (ix2 f' k)) (fun f' => v30 (ix2 (0 : Fin 1) f'))
          (hidden (fun j' k => v20 (ix2 j' k)) (fun j' => v22 (ix2 (0 : Fin 1) j'))
            (stats (fun f' => meanK fun t' => v0 (ix3 bb t' f')) (fun f' => devK fun t' => v0 (ix3 bb t' f')))) f := by
  have hm : matmul (φ₁ := .f32) (φ₂ := .f32) dot_S2x256_S256x256_S2x256_1_1_0_0_n_n none (hiddenRow v0 v20 v22) v28
      (constant S2x256 .f32 0x00000000#32) (ix2 bb f) = ∑ k : Fin 256, hiddenRow v0 v20 v22 (ix2 bb k) * v28 (ix2 f k) :=
    rowsDot_second.matmul_apply (φ₁ := .f32) (φ₂ := .f32) (hiddenRow v0 v20 v22) v28 bb f
  show Ideal.logistic (matmul (φ₁ := .f32) (φ₂ := .f32) dot_S2x256_S256x256_S2x256_1_1_0_0_n_n none (hiddenRow v0 v20 v22) v28
        (constant S2x256 .f32 0x00000000#32) (ix2 bb f)
      + broadcastTo S2x256 (shapeCast S1x256 v30 shapeCasts_S1x256_S1x256) broadcasts_S1x256_S2x256 (ix2 bb f)) = _
  rw [hm, row_broadcast_at]
  simp only [hiddenRow_at]
  rfl

/-- The payload at `(bb, 0, f)`: the gate of feature `f` over the deviation of column `f`, both of batch entry `bb`. -/
theorem pay3_at (v0 : Vec Ideal S2x4096x256 .f32) (v20 : Vec Ideal S256x512 .f32) (v22 : Vec Ideal S1x256 .f32)
    (v28 : Vec Ideal S256x256 .f32) (v30 : Vec Ideal S1x256 .f32) (bb : Fin 2) (f : Fin 256) :
    k0_pay3 (F := Ideal) v0 v20 v22 v28 v30 (ix3 bb (0 : Fin 1) f)
      = Ideal.div
          (gate (fun f' k => v28 (ix2 f' k)) (fun f' => v30 (ix2 (0 : Fin 1) f'))
            (hidden (fun j' k => v20 (ix2 j' k)) (fun j' => v22 (ix2 (0 : Fin 1) j'))
              (stats (fun f' => meanK fun t' => v0 (ix3 bb t' f')) (fun f' => devK fun t' => v0 (ix3 bb t' f')))) f)
          (devK fun t' => v0 (ix3 bb t' f)) := by
  rw [pay3_eq, cast_addUnit_at]
  show Ideal.div (gateRow v0 v20 v22 v28 v30 (ix2 bb f))
      (shapeCast S2x256 (devRow v0) shapeCasts_S2x1x256_S2x256 (ix2 bb f)) = _
  rw [gateRow_at, cast_dropUnit_at, devRow_at]

/-- What the body leaves at `(bb, t, f)` of its output block, from the seven input blocks. -/
theorem block_at (P0 : Vec Ideal S1x256 .f32) (P1 : Vec Ideal S2x4096x256 .f32) (P2 : Vec Ideal S256x512 .f32)
    (P3 : Vec Ideal S1x256 .f32) (P4 : Vec Ideal S256x256 .f32) (P5 : Vec Ideal S1x256 .f32) (P6 : Vec Ideal S1x256 .f32)
    (bb : Fin 2) (t : Fin 4096) (f : Fin 256) :
    Cert.KernelIdeal.Value.E7 (F := Ideal) P0 P1 P2 P3 P4 P5 P6 (ix3 bb t f)
      = tableK (fun t' f' => P1 (ix3 bb t' f')) (fun f' => P0 (ix2 (0 : Fin 1) f')) (fun f' => P6 (ix2 (0 : Fin 1) f'))
        (fun j k => P2 (ix2 j k)) (fun j => P3 (ix2 (0 : Fin 1) j)) (fun f' k => P4 (ix2 f' k)) (fun f' => P5 (ix2 (0 : Fin 1) f')) t f := by
  have e0 : Value.ix7_0 (ix3 bb t f) = ix2 (0 : Fin 1) f :=
    funext fun a => match a with | ⟨0, _⟩ => rfl | ⟨1, _⟩ => rfl
  have e1 : Value.ix7_1 (ix3 bb t f) = ix3 bb t f :=
    funext fun a => match a with | ⟨0, _⟩ => rfl | ⟨1, _⟩ => rfl | ⟨2, _⟩ => rfl
  have e2 : Value.ix7_2 (ix3 bb t f) = ix2 bb f :=
    funext fun a => match a with | ⟨0, _⟩ => rfl | ⟨1, _⟩ => rfl
  have e3 : Value.ix7_3 (ix3 bb t f) = ix3 bb (0 : Fin 1) f :=
    funext fun a => match a with | ⟨0, _⟩ => rfl | ⟨1, _⟩ => rfl | ⟨2, _⟩ => rfl
  have e4 : Value.ix7_4 (ix3 bb t f) = ix2 (0 : Fin 1) f :=
    funext fun a => match a with | ⟨0, _⟩ => rfl | ⟨1, _⟩ => rfl
  show P0 (Value.ix7_0 (ix3 bb t f)) * Ideal.tanh ((P1 (Value.ix7_1 (ix3 bb t f))
        - multiReduction (F := Ideal) .add [1] S2x256 P1 0x00000000#32 reduces_S2x4096x256_S2x256 (.inl rfl) rfl
            (Value.ix7_2 (ix3 bb t f)) * invSteps)
      * k0_pay3 (F := Ideal) P1 P2 P3 P4 P5 (Value.ix7_3 (ix3 bb t f))) + P6 (Value.ix7_4 (ix3 bb t f)) = _
  rw [e0, e1, e2, e3, e4, laneSum_at, pay3_at]
  rfl

end Cert.KernelIdeal.Block

end
-- ==== Proof.KernelArray.lean ====
/-
  From blocks to the array: the kernel's result array is the gated normalisation of the whole input.

  The grid has 32 points. Point `t` stages batch entries `2t` and `2t + 1` of the input, a block of shape
  [2, 4096, 256], together with the whole of every parameter array, and writes back the block of the result at the
  same place. The four vector parameters reach the kernel as rows of shape [1, 256] holding the same 256 numbers. So
  what point `t` writes at `(bb, t', f)` of its block is the result table of batch entry `2t + bb` at `(t', f)` — on
  real entries, where the body's multiplying arrangement is the dividing one — and the 32 blocks tile the array.
-/
import proofs.«118787_g14611478741530_feedfinal_158_4_alg».proof.Proof.Gen.KernelIdeal.Value
import proofs.«118787_g14611478741530_feedfinal_158_4_alg».proof.Proof.GatedNorm
import proofs.«118787_g14611478741530_feedfinal_158_4_alg».proof.Proof.GatedNormLaws
import proofs.«118787_g14611478741530_feedfinal_158_4_alg».proof.Proof.KernelBlock
import proofs.«118787_g14611478741530_feedfinal_158_4_alg».proof.Proof.LibRealValued
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Value Cert.GatedNorm Cert.Lib.RealValued

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## Where each window's block sits -/

/-- The printed index maps over the grid: the input and the result move one block of two batch entries per point;
    every parameter window stays at its one block. -/
theorem idx_facts : ∀ t : Fin cfg0.N,
    win0_0.index t (0 : Fin 3) = t.val ∧ win0_0.index t (1 : Fin 3) = 0 ∧ win0_0.index t (2 : Fin 3) = 0
    ∧ win0_7.index t (0 : Fin 3) = t.val ∧ win0_7.index t (1 : Fin 3) = 0 ∧ win0_7.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## A vector as a row -/

/-- A vector of 256 numbers cast to a row [1, 256] holds entry `f` at `(0, f)`. -/
theorem row_apply (v : S256.Idx → EReal) (f : Fin 256) :
    shapeCast S1x256 v shapeCasts_S256_S1x256 (ix2 (0 : Fin 1) f) = v (ix1 f) := by
  refine shapeCast_apply v shapeCasts_S256_S1x256 (ix2 (0 : Fin 1) f) (ix1 f) ?_
  rw [Shape.rowMajor_val_two, Shape.rowMajor_val_one]
  show f.val = 0 * 256 + f.val
  omega

/-- The four rows the host prepares before the launch are the four vector parameters, cast. -/
theorem rows_eq (c : Dev nD) :
    (V m c main_v0 : S1x256.Idx → EReal) = shapeCast S1x256 (m ((c : Thread nD τ).loc main_arg1)) shapeCasts_S256_S1x256
    ∧ (V m c main_v1 : S1x256.Idx → EReal) = shapeCast S1x256 (m ((c : Thread nD τ).loc main_arg2)) shapeCasts_S256_S1x256
    ∧ (V m c main_v2 : S1x256.Idx → EReal) = shapeCast S1x256 (m ((c : Thread nD τ).loc main_arg4)) shapeCasts_S256_S1x256
    ∧ (V m c main_v3 : S1x256.Idx → EReal) = shapeCast S1x256 (m ((c : Thread nD τ).loc main_arg6)) shapeCasts_S256_S1x256 := by
  refine ⟨?_, ?_, ?_, ?_⟩ <;> (dsimp only [V, hostOps0]; after_results; rfl)

/-! ## The blocks, read -/

/-- Point `t`'s input block holds batch entries `2t` and `2t + 1`. -/
theorem xblk_apply (c : Dev nD) (t : Fin cfg0.N) (bb : Fin 2) (t' : Fin 4096) (f' : Fin 256) (b : Fin 64)
    (hb : b.val = 2 * t.val + bb.val) :
    (iblk m c 0 t : Vec Ideal S2x4096x256 .f32) (ix3 bb t' f')
      = (m ((c : Thread nD τ).loc main_arg0) : S64x4096x256.Idx → EReal) (ix3 b t' f') := by
  obtain ⟨e0, e1, e2, -⟩ := idx_facts t
  unfold iblk
  rw [View.read_apply]
  show V m c main_arg0 _ = _
  rw [V_main_arg0]
  congr 1
  funext a
  apply Fin.ext
  match a with
  | ⟨0, _⟩ => show win0_0.index t (0 : Fin 3) * 2 + 1 * bb.val = b.val; omega
  | ⟨1, _⟩ => show win0_0.index t (1 : Fin 3) * 4096 + 1 * t'.val = t'.val; omega
  | ⟨2, _⟩ => show win0_0.index t (2 : Fin 3) * 256 + 1 * f'.val = f'.val; omega

/-- The row of scales at every point is the scale vector. -/
theorem gammaBlk_apply (c : Dev nD) (t : Fin cfg0.N) (f' : Fin 256) :
    (iblk m c 1 t : Vec Ideal S1x256 .f32) (ix2 (0 : Fin 1) f')
      = (m ((c : Thread nD τ).loc main_arg1) : S256.Idx → EReal) (ix1 f') := by
  have e0 : win0_1.index t (0 : Fin 2) = 0 := (idx_facts t).2.2.2.2.2.2.1
  have e1 : win0_1.index t (1 : Fin 2) = 0 := (idx_facts t).2.2.2.2.2.2.2.1
  unfold iblk
  rw [View.read_apply]
  show V m c main_v0 _ = _
  rw [(rows_eq m c).1]
  refine (congrArg _ (?_ : _ = ix2 (0 : Fin 1) f')).trans (row_apply _ f')
  funext a
  apply Fin.ext
  match a with
  | ⟨0, _⟩ => show win0_1.index t (0 : Fin 2) * 1 + 1 * 0 = 0; omega
  | ⟨1, _⟩ => show win0_1.index t (1 : Fin 2) * 256 + 1 * f'.val = f'.val; omega

/-- The row of shifts at every point is the shift vector. -/
theorem betaBlk_apply (c : Dev nD) (t : Fin cfg0.N) (f' : Fin 256) :
    (iblk m c 2 t : Vec Ideal S1x256 .f32) (ix2 (0 : Fin 1) f')
      = (m ((c : Thread nD τ).loc main_arg2) : S256.Idx → EReal) (ix1 f') := by
  have e0 : win0_2.index t (0 : Fin 2) = 0 := (idx_facts t).2.2.2.2.2.2.2.2.1
  have e1 : win0_2.index t (1 : Fin 2) = 0 := (idx_facts t).2.2.2.2.2.2.2.2.2.1
  unfold iblk
  rw [View.read_apply]
  show V m c main_v1 _ = _
  rw [(rows_eq m c).2.1]
  refine (congrArg _ (?_ : _ = ix2 (0 : Fin 1) f')).trans (row_apply _ f')
  funext a
  apply Fin.ext
  match a with
  | ⟨0, _⟩ => show win0_2.index t (0 : Fin 2) * 1 + 1 * 0 = 0; omega
  | ⟨1, _⟩ => show win0_2.index t (1 : Fin 2) * 256 + 1 * f'.val = f'.val; omega

/-- The row of first-layer biases at every point is the bias vector. -/
theorem bias1Blk_apply (c : Dev nD) (t : Fin cfg0.N) (f' : Fin 256) :
    (iblk m c 4 t : Vec Ideal S1x256 .f32) (ix2 (0 : Fin 1) f')
      = (m ((c : Thread nD τ).loc main_arg4) : S256.Idx → EReal) (ix1 f') := by
  have e0 : win0_4.index t (0 : Fin 2) = 0 := (idx_facts t).2.2.2.2.2.2.2.2.2.2.2.2.1
  have e1 : win0_4.index t (1 : Fin 2) = 0 := (idx_facts t).2.2.2.2.2.2.2.2.2.2.2.2.2.1
  unfold iblk
  rw [View.read_apply]
  show V m c main_v2 _ = _
  rw [(rows_eq m c).2.2.1]
  refine (congrArg _ (?_ : _ = ix2 (0 : Fin 1) f')).trans (row_apply _ f')
  funext a
  apply Fin.ext
  match a with
  | ⟨0, _⟩ => show win0_4.index t (0 : Fin 2) * 1 + 1 * 0 = 0; omega
  | ⟨1, _⟩ => show win0_4.index t (1 : Fin 2) * 256 + 1 * f'.val = f'.val; omega

/-- The row of second-layer biases at every point is the bias vector. -/
theorem bias2Blk_apply (c : Dev nD) (t : Fin cfg0.N) (f' : Fin 256) :
    (iblk m c 6 t : Vec Ideal S1x256 .f32) (ix2 (0 : Fin 1) f')
      = (m ((c : Thread nD τ).loc main_arg6) : S256.Idx → EReal) (ix1 f') := by
  have e0 : win0_6.index t (0 : Fin 2) = 0 := (idx_facts t).2.2.2.2.2.2.2.2.2.2.2.2.2.2.2.2.1
  have e1 : win0_6.index t (1 : Fin 2) = 0 := (idx_facts t).2.2.2.2.2.2.2.2.2.2.2.2.2.2.2.2.2
  unfold iblk
  rw [View.read_apply]
  show V m c main_v3 _ = _
  rw [(rows_eq m c).2.2.2]
  refine (congrArg _ (?_ : _ = ix2 (0 : Fin 1) f')).trans (row_apply _ f')
  funext a
  apply Fin.ext
  match a with
  | ⟨0, _⟩ => show win0_6.index t (0 : Fin 2) * 1 + 1 * 0 = 0; omega
  | ⟨1, _⟩ => show win0_6.index t (1 : Fin 2) * 256 + 1 * f'.val = f'.val; omega

/-- The first layer's weights at every point are the whole weight matrix. -/
theorem w1Blk_apply (c : Dev nD) (t : Fin cfg0.N) (j : Fin 256) (k : Fin 512) :
    (iblk m c 3 t : Vec Ideal S256x512 .f32) (ix2 j k)
      = (m ((c : Thread nD τ).loc main_arg3) : S256x512.Idx → EReal) (ix2 j k) := by
  have e0 : win0_3.index t (0 : Fin 2) = 0 := (idx_facts t).2.2.2.2.2.2.2.2.2.2.1
  have e1 : win0_3.index t (1 : Fin 2) = 0 := (idx_facts t).2.2.2.2.2.2.2.2.2.2.2.1
  unfold iblk
  rw [View.read_apply]
  show V m c main_arg3 _ = _
  rw [V_main_arg3]
  congr 1
  funext a
  apply Fin.ext
  match a with
  | ⟨0, _⟩ => show win0_3.index t (0 : Fin 2) * 256 + 1 * j.val = j.val; omega
  | ⟨1, _⟩ => show win0_3.index t (1 : Fin 2) * 512 + 1 * k.val = k.val; omega

/-- The second layer's weights at every point are the whole weight matrix. -/
theorem w2Blk_apply (c : Dev nD) (t : Fin cfg0.N) (j : Fin 256) (k : Fin 256) :
    (iblk m c 5 t : Vec Ideal S256x256 .f32) (ix2 j k)
      = (m ((c : Thread nD τ).loc main_arg5) : S256x256.Idx → EReal) (ix2 j k) := by
  have e0 : win0_5.index t (0 : Fin 2) = 0 := (idx_facts t).2.2.2.2.2.2.2.2.2.2.2.2.2.2.1
  have e1 : win0_5.index t (1 : Fin 2) = 0 := (idx_facts t).2.2.2.2.2.2.2.2.2.2.2.2.2.2.2.1
  unfold iblk
  rw [View.read_apply]
  show V m c main_arg5 _ = _
  rw [V_main_arg5]
  congr 1
  funext a
  apply Fin.ext
  match a with
  | ⟨0, _⟩ => show win0_5.index t (0 : Fin 2) * 256 + 1 * j.val = j.val; omega
  | ⟨1, _⟩ => show win0_5.index t (1 : Fin 2) * 256 + 1 * k.val = k.val; omega

/-! ## What the body leaves, over any blocks -/

/-- On a block whose batch entry `bb` is real, the body leaves at `(bb, tt, f)` the result table of that batch entry:
    the stores' canon is the index-by-index function of the loads, that function is the multiplying arrangement,
    and on reals the multiplying arrangement is the dividing one. -/
theorem out_block (x0 : Vec Ideal S2x4096x256 .f32) (x1 x2 : Vec Ideal S1x256 .f32) (x3 : Vec Ideal S256x512 .f32)
    (x4 : Vec Ideal S1x256 .f32) (x5 : Vec Ideal S256x256 .f32) (x6 : Vec Ideal S1x256 .f32)
    (bb : Fin 2) (tt : Fin 4096) (f : Fin 256) (hreal : ∀ t' f', IsReal (x0 (ix3 bb t' f'))) :
    out0_7 x0 x1 x2 x3 x4 x5 x6 (ix3 bb tt f)
      = table (fun t' f' => x0 (ix3 bb t' f')) (fun f' => x1 (ix2 (0 : Fin 1) f')) (fun f' => x2 (ix2 (0 : Fin 1) f'))
          (fun j k => x3 (ix2 j k)) (fun j => x4 (ix2 (0 : Fin 1) j)) (fun f' k => x5 (ix2 f' k))
          (fun f' => x6 (ix2 (0 : Fin 1) f')) tt f := by
  unfold out0_7
  simp only [View.ld_unit_zero (S := S2x4096x256) hz3, View.ld_unit_zero (S := S256x512) hz2,
    View.ld_unit_zero (S := S1x256) hz2, View.ld_unit_zero (S := S256x256) hz2]
  refine (canon7_eq x1 x0 x3 x4 x5 x6 x2 (ix3 bb tt f)).trans ?_
  refine (Cert.KernelIdeal.Block.block_at x1 x0 x3 x4 x5 x6 x2 bb tt f).trans ?_
  exact tableK_eq_table _ hreal _ _ _ _ _ _ tt f

/-! ## What point `t` writes back -/

/-- Point `t` writes back block `t` of the result array, when the input is real. -/
theorem flushed_eq (hx : ∀ (c : Dev nD) (i : S64x4096x256.Idx), IsReal ((m ((c : Thread nD τ).loc main_arg0) : S64x4096x256.Idx → EReal) i))
    (c : Dev nD) (t : Fin cfg0.N) :
    (dats m 0 c).flushed 7 t = ((cfg0.win 7).blk t).view.read (Elt Ideal) (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  have hN : cfg0.N = 32 := N_0
  have ht : t.val < 32 := hN ▸ t.isLt
  obtain ⟨-, -, -, e0, e1, e2, -⟩ := idx_facts t
  rw [flushed7]
  funext y
  obtain ⟨bb, tt, f, rfl⟩ : ∃ (bb : Fin 2) (tt : Fin 4096) (f : Fin 256), y = ix3 bb tt f := ⟨y 0, y 1, y 2, eq_ix3 y⟩
  have hb : 2 * t.val + bb.val < 64 := by have := bb.isLt; omega
  show out0_7 (iblk m c 0 t) (iblk m c 1 t) (iblk m c 2 t) (iblk m c 3 t) (iblk m c 4 t) (iblk m c 5 t) (iblk m c 6 t) (ix3 bb tt f)
    = (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (((cfg0.win 7).blk t).view.emb (ix3 bb tt f))
  have hemb : ((cfg0.win 7).blk t).view.emb (ix3 bb tt f) = ix3 (⟨2 * t.val + bb.val, hb⟩ : Fin 64) tt f := by
    funext a
    apply Fin.ext
    match a with
    | ⟨0, _⟩ => show win0_7.index t (0 : Fin 3) * 2 + 1 * bb.val = 2 * t.val + bb.val; omega
    | ⟨1, _⟩ => show win0_7.index t (1 : Fin 3) * 4096 + 1 * tt.val = tt.val; omega
    | ⟨2, _⟩ => show win0_7.index t (2 : Fin 3) * 256 + 1 * f.val = f.val; omega
  rw [hemb, result_ix3]
  refine (out_block (iblk m c 0 t) (iblk m c 1 t) (iblk m c 2 t) (iblk m c 3 t) (iblk m c 4 t) (iblk m c 5 t) (iblk m c 6 t)
    bb tt f (fun t' f' => ?_)).trans ?_
  · rw [xblk_apply m c t bb t' f' ⟨2 * t.val + bb.val, hb⟩ rfl]
    exact hx c _
  · have h0 : (fun t' f' => (iblk m c 0 t : Vec Ideal S2x4096x256 .f32) (ix3 bb t' f'))
        = fun t' f' => (m ((c : Thread nD τ).loc main_arg0) : S64x4096x256.Idx → EReal) (ix3 (⟨2 * t.val + bb.val, hb⟩ : Fin 64) t' f') :=
      funext fun t' => funext fun f' => xblk_apply m c t bb t' f' _ rfl
    have h1 : (fun f' => (iblk m c 1 t : Vec Ideal S1x256 .f32) (ix2 (0 : Fin 1) f'))
        = fun f' => (m ((c : Thread nD τ).loc main_arg1) : S256.Idx → EReal) (ix1 f') := funext fun f' => gammaBlk_apply m c t f'
    have h2 : (fun f' => (iblk m c 2 t : Vec Ideal S1x256 .f32) (ix2 (0 : Fin 1) f'))
        = fun f' => (m ((c : Thread nD τ).loc main_arg2) : S256.Idx → EReal) (ix1 f') := funext fun f' => betaBlk_apply m c t f'
    have h3 : (fun j k => (iblk m c 3 t : Vec Ideal S256x512 .f32) (ix2 j k))
        = fun j k => (m ((c : Thread nD τ).loc main_arg3) : S256x512.Idx → EReal) (ix2 j k) :=
      funext fun j => funext fun k => w1Blk_apply m c t j k
    have h4 : (fun j => (iblk m c 4 t : Vec Ideal S1x256 .f32) (ix2 (0 : Fin 1) j))
        = fun j => (m ((c : Thread nD τ).loc main_arg4) : S256.Idx → EReal) (ix1 j) := funext fun j => bias1Blk_apply m c t j
    have h5 : (fun f' k => (iblk m c 5 t : Vec Ideal S256x256 .f32) (ix2 f' k))
        = fun f' k => (m ((c : Thread nD τ).loc main_arg5) : S256x256.Idx → EReal) (ix2 f' k) :=
      funext fun f' => funext fun k => w2Blk_apply m c t f' k
    have h6 : (fun f' => (iblk m c 6 t : Vec Ideal S1x256 .f32) (ix2 (0 : Fin 1) f'))
        = fun f' => (m ((c : Thread nD τ).loc main_arg6) : S256.Idx → EReal) (ix1 f') := funext fun f' => bias2Blk_apply m c t f'
    rw [h0, h1, h2, h3, h4, h5, h6]

/-! ## The blocks tile the array -/

/-- An index of the array is in point `t`'s block iff each coordinate is in the block's range on its axis. -/
theorem mem_blk (t : Fin cfg0.N) (i : S64x4096x256.Idx) :
    i ∈ ((cfg0.win 7).blk t).view.set ↔ ∀ a : Fin 3, win0_7.index t a * S2x4096x256.size a ≤ (i a).val
      ∧ (i a).val < win0_7.index t a * S2x4096x256.size a + S2x4096x256.size a := by
  show i ∈ ((View.whole main_v4).slice (win0_7.rect t)).set ↔ _
  rw [View.set_slice_whole, Rect.mem_set_unit]
  exact Iff.rfl

/-- Batch entry `b` lies in the block of point `b / 2`. -/
theorem cover (i : S64x4096x256.Idx) :
    ∃ t : Fin cfg0.N, (cfg0.win 7).flush t = true ∧ i ∈ ((cfg0.win 7).blk t).view.set := by
  have hi0 : (i 0).val < 64 := (i 0).isLt
  have hi1 : (i 1).val < 4096 := (i 1).isLt
  have hi2 : (i 2).val < 256 := (i 2).isLt
  have hN : cfg0.N = 32 := N_0
  have hlt : (i 0).val / 2 < cfg0.N := by rw [hN]; omega
  obtain ⟨-, -, -, e0, e1, e2, -⟩ := idx_facts ⟨(i 0).val / 2, hlt⟩
  have e0' : win0_7.index ⟨(i 0).val / 2, hlt⟩ (0 : Fin 3) = (i 0).val / 2 := e0
  refine ⟨⟨(i 0).val / 2, hlt⟩, flush0_7 _, ?_⟩
  rw [mem_blk]
  intro a
  match a with
  | ⟨0, _⟩ =>
    show win0_7.index ⟨(i 0).val / 2, hlt⟩ (0 : Fin 3) * 2 ≤ (i 0).val
      ∧ (i 0).val < win0_7.index ⟨(i 0).val / 2, hlt⟩ (0 : Fin 3) * 2 + 2
    omega
  | ⟨1, _⟩ =>
    show win0_7.index ⟨(i 0).val / 2, hlt⟩ (1 : Fin 3) * 4096 ≤ (i 1).val
      ∧ (i 1).val < win0_7.index ⟨(i 0).val / 2, hlt⟩ (1 : Fin 3) * 4096 + 4096
    omega
  | ⟨2, _⟩ =>
    show win0_7.index ⟨(i 0).val / 2, hlt⟩ (2 : Fin 3) * 256 ≤ (i 2).val
      ∧ (i 2).val < win0_7.index ⟨(i 0).val / 2, hlt⟩ (2 : Fin 3) * 256 + 256
    omega

/-! ## The array and the run -/

/-- After the run the result array holds the gated normalisation of the input array, when the input is real. -/
theorem final (hx : ∀ (c : Dev nD) (i : S64x4096x256.Idx), IsReal ((m ((c : Thread nD τ).loc main_arg0) : S64x4096x256.Idx → EReal) i))
    (c : Dev nD) : (dats m 0 c).arrAt 7 cfg0.N = (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :=
  (dats m 0 c).arrAt_eq_of_cover 7 (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => flushed_eq m hx c t) cover

/-- The kernel's run, read: the result array at the gated normalisation of the arguments, the arguments unchanged. -/
theorem run (hx : ∀ (c : Dev nD) (i : S64x4096x256.Idx), IsReal ((m ((c : Thread nD τ).loc main_arg0) : S64x4096x256.Idx → EReal) i)) :
    θ_run defs (onTc (τ := τ) (main (F := Ideal))) ⟨m, fun _ => 0, ρ⟩ fun r => ∀ c : Dev nD,
      r.2.mem ((c : Thread nD τ).loc main_v4) = (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m hx c), (h c).2⟩) (run_blocks m ρ)

end Cert.KernelIdeal.Whole

end
-- ==== Proof.ReferenceRead.lean ====
/-
  The reference's result at an index is the dividing arrangement of the gated normalisation of that batch entry.
-/
import proofs.«118787_g14611478741530_feedfinal_158_4_alg».proof.Proof.Gen.ReferenceIdeal.Read
import proofs.«118787_g14611478741530_feedfinal_158_4_alg».proof.Proof.GatedNorm
import proofs.«118787_g14611478741530_feedfinal_158_4_alg».proof.Proof.GatedNormConsts
import Idealize.ShloMosaic.Lib.ValueIdx
import Idealize.ShloMosaic.Lib.Pipeline.Value
import Idealize.ShloMosaic.PureOps.Ideal.Laws

noncomputable section

open scoped BigOperators

namespace Cert.ReferenceIdeal.AtIndex

open Idealize.ShloMosaic Idealize.ShloMosaic.ValueIdx Cert.ReferenceIdeal Cert.ReferenceIdeal.Gen Cert.GatedNorm

/-- The column mean: the reference's quotient of the time sum by the pattern of 4096, the sum's initial value being zero. -/
theorem mean_at (x0 : (⟨S64x4096x256, .f32⟩ : BufTy).Contents (Elt Ideal)) (b : Fin 64) (f : Fin 256) :
    Cert.ReferenceIdeal.Read.val_main_v3 (F := Ideal) x0 (ix3 b (0 : Fin 1) f) = mean (fun t => x0 (ix3 b t f)) := by
  rw [Read.val_main_v3_apply, Read.val_main_v1_apply, Read.val_main_v0_apply, Read.val_main_v2_apply,
    Read.val_main_cst_0_apply, Read.val_main_cst_apply]
  simp only [Ideal.hostDivf_def, Ideal.ofBits_def, Ideal.ofBits_zero_f32, zero_add]
  unfold mean
  refine congrArg (Ideal.div · steps) (Finset.sum_congr rfl fun k _ => congrArg x0 ?_)
  exact funext fun a => Fin.ext (by match a with | ⟨0, _⟩ => rfl | ⟨1, _⟩ => rfl | ⟨2, _⟩ => rfl)

/-- The centred entry: the entry less its column's mean, the mean broadcast along time. -/
theorem centred_at (x0 : (⟨S64x4096x256, .f32⟩ : BufTy).Contents (Elt Ideal)) (b : Fin 64) (t : Fin 4096) (f : Fin 256) :
    Cert.ReferenceIdeal.Read.val_main_v5 (F := Ideal) x0 (ix3 b t f)
      = x0 (ix3 b t f) - mean (fun t' => x0 (ix3 b t' f)) := by
  rw [Read.val_main_v5_apply, Read.val_main_v4_apply, Ideal.subf_def]
  refine congrArg (x0 (ix3 b t f) - ·) (Eq.trans (congrArg (Read.val_main_v3 (F := Ideal) x0) ?_) (mean_at x0 b f))
  exact funext fun a => Fin.ext (by match a with | ⟨0, _⟩ => rfl | ⟨1, _⟩ => rfl | ⟨2, _⟩ => rfl)

/-- The stabilised deviation: the root of the mean squared deviation plus the stabiliser. -/
theorem dev_at (x0 : (⟨S64x4096x256, .f32⟩ : BufTy).Contents (Elt Ideal)) (b : Fin 64) (f : Fin 256) :
    Cert.ReferenceIdeal.Read.val_main_v13 (F := Ideal) x0 (ix3 b (0 : Fin 1) f) = dev (fun t => x0 (ix3 b t f)) := by
  rw [Read.val_main_v13_apply, Read.val_main_v12_apply, Read.val_main_v10_apply, Read.val_main_v8_apply,
    Read.val_main_v7_apply, Read.val_main_v9_apply, Read.val_main_v11_apply, Read.val_main_cst_1_apply,
    Read.val_main_cst_2_apply, Read.val_main_cst_3_apply]
  simp only [Ideal.hostDivf_def, Ideal.hostUnary_sqrt_def, Ideal.addf_def, Ideal.ofBits_def, Ideal.ofBits_zero_f32, zero_add]
  unfold dev
  refine congrArg (fun s => Ideal.sqrt (Ideal.div s steps + eps)) (Finset.sum_congr rfl fun k _ => ?_)
  have e : Read.idx_main_v7 (Read.idx_main_v8 (ix3 b (0 : Fin 1) f)) k = ix3 b k f :=
    funext fun a => Fin.ext (by match a with | ⟨0, _⟩ => rfl | ⟨1, _⟩ => rfl | ⟨2, _⟩ => rfl)
  rw [e, Read.val_main_v6_apply, Ideal.mulf_def, centred_at]

/-- The 512 statistics: the joined array at `(b, 0, k)` is the mean of column `k` below 256 and the deviation of column
    `k - 256` from 256 on, the two pieces laid end to end along the last axis. -/
theorem stats_at (x0 : (⟨S64x4096x256, .f32⟩ : BufTy).Contents (Elt Ideal)) (b : Fin 64) (k : Fin 512) :
    Cert.ReferenceIdeal.Read.val_main_v18 (F := Ideal) x0 (ix3 b (0 : Fin 1) k)
      = stats (fun f' => mean fun t' => x0 (ix3 b t' f')) (fun f' => dev fun t' => x0 (ix3 b t' f')) k := by
  unfold Read.val_main_v18 stats
  by_cases h : k.val < 256
  · rw [dif_pos h]
    refine (concatenate_pair_apply_left (2 : Fin S64x1x512.rank) _ _ concatenates_S64x1x256_S64x1x256_S64x1x512_d2
      (ix3 b (0 : Fin 1) k) rfl (ix3 b (0 : Fin 1) (⟨k.val, h⟩ : Fin 256)) ?_).trans (mean_at x0 b ⟨k.val, h⟩)
    intro a
    match a with
    | ⟨0, _⟩ => rfl
    | ⟨1, _⟩ => rfl
    | ⟨2, _⟩ => rfl
  · rw [dif_neg h]
    refine (concatenate_pair_apply_right (2 : Fin S64x1x512.rank) _ _ concatenates_S64x1x256_S64x1x256_S64x1x512_d2
      (ix3 b (0 : Fin 1) k) rfl rfl (ix3 b (0 : Fin 1) (⟨k.val - 256, by omega⟩ : Fin 256)) ?_ ?_).trans
      (dev_at x0 b ⟨k.val - 256, by omega⟩)
    · intro a ha
      match a, ha with
      | ⟨0, _⟩, _ => rfl
      | ⟨1, _⟩, _ => rfl
      | ⟨2, _⟩, ha => exact absurd rfl ha
    · show k.val - 256 + 256 = k.val
      omega

/-- The rectified layer: row `j` of the first weight array against the 512 statistics, plus the bias, clamped at zero. -/
theorem hidden_at (x0 : (⟨S64x4096x256, .f32⟩ : BufTy).Contents (Elt Ideal)) (x3 : (⟨S256x512, .f32⟩ : BufTy).Contents (Elt Ideal))
    (x4 : (⟨S256, .f32⟩ : BufTy).Contents (Elt Ideal)) (b : Fin 64) (j : Fin 256) :
    Cert.ReferenceIdeal.Read.val_main_v23 (F := Ideal) x0 x3 x4 (ix3 b (0 : Fin 1) j)
      = Cert.GatedNorm.hidden (fun j' k => x3 (ix2 j' k)) (fun j' => x4 (ix1 j'))
          (stats (fun f' => mean fun t' => x0 (ix3 b t' f')) (fun f' => dev fun t' => x0 (ix3 b t' f'))) j := by
  rw [Read.val_main_v23_apply, Read.val_main_v22_apply, Read.val_main_v19_apply, Read.val_main_v21_apply,
    Read.val_main_v20_apply, Read.val_main_call0_v0_apply, Read.val_main_call0_cst_apply]
  simp only [Ideal.maximumf_def, Ideal.addf_def, Ideal.ofBits_def, Ideal.ofBits_zero_f32]
  unfold Cert.GatedNorm.hidden
  have eb : Read.idx_main_v20 (Read.idx_main_v21 (ix3 b (0 : Fin 1) j)) = ix1 j :=
    funext fun a => Fin.ext (by match a with | ⟨0, _⟩ => rfl)
  rw [eb]
  refine congrArg (fun s => max (s + x4 (ix1 j)) 0) (Finset.sum_congr rfl fun k _ => ?_)
  have el : Read.lidx_main_v19 (ix3 b (0 : Fin 1) j) k = ix3 b (0 : Fin 1) k :=
    funext fun a => Fin.ext (by match a with | ⟨0, _⟩ => rfl | ⟨1, _⟩ => rfl | ⟨2, _⟩ => rfl)
  have er : Read.ridx_main_v19 (ix3 b (0 : Fin 1) j) k = ix2 j k :=
    funext fun a => Fin.ext (by match a with | ⟨0, _⟩ => rfl | ⟨1, _⟩ => rfl)
  rw [el, er, stats_at]

/-- The logistic layer: row `f` of the second weight array against the rectified layer, plus the bias, through
    `1 / (1 + exp (-·))`, both patterns of `1.0` denoting 1. -/
theorem gate_at (x0 : (⟨S64x4096x256, .f32⟩ : BufTy).Contents (Elt Ideal)) (x3 : (⟨S256x512, .f32⟩ : BufTy).Contents (Elt Ideal))
    (x4 : (⟨S256, .f32⟩ : BufTy).Contents (Elt Ideal)) (x5 : (⟨S256x256, .f32⟩ : BufTy).Contents (Elt Ideal))
    (x6 : (⟨S256, .f32⟩ : BufTy).Contents (Elt Ideal)) (b : Fin 64) (f : Fin 256) :
    Cert.ReferenceIdeal.Read.val_main_v33 (F := Ideal) x0 x3 x4 x5 x6 (ix3 b (0 : Fin 1) f)
      = gate (fun f' k => x5 (ix2 f' k)) (fun f' => x6 (ix1 f'))
          (Cert.GatedNorm.hidden (fun j' k => x3 (ix2 j' k)) (fun j' => x4 (ix1 j'))
            (stats (fun f' => mean fun t' => x0 (ix3 b t' f')) (fun f' => dev fun t' => x0 (ix3 b t' f')))) f := by
  rw [Read.val_main_v33_apply, Read.val_main_v32_apply, Read.val_main_v31_apply, Read.val_main_v30_apply,
    Read.val_main_v29_apply, Read.val_main_v28_apply, Read.val_main_v27_apply, Read.val_main_v24_apply,
    Read.val_main_v26_apply, Read.val_main_v25_apply, Read.val_main_cst_4_apply, Read.val_main_cst_5_apply]
  simp only [Ideal.hostDivf_def, Ideal.hostUnary_exp_def, Ideal.hostNegf_def, Ideal.negf_def, Ideal.addf_def,
    Ideal.ofBits_def, ofBits_one]
  unfold gate Ideal.logistic
  have eb : Read.idx_main_v25 (Read.idx_main_v26 (ix3 b (0 : Fin 1) f)) = ix1 f :=
    funext fun a => Fin.ext (by match a with | ⟨0, _⟩ => rfl)
  rw [eb]
  refine congrArg (fun s => Ideal.div 1 (1 + Ideal.exp (-(s + x6 (ix1 f))))) (Finset.sum_congr rfl fun k _ => ?_)
  have el : Read.lidx_main_v24 (ix3 b (0 : Fin 1) f) k = ix3 b (0 : Fin 1) k :=
    funext fun a => Fin.ext (by match a with | ⟨0, _⟩ => rfl | ⟨1, _⟩ => rfl | ⟨2, _⟩ => rfl)
  have er : Read.ridx_main_v24 (ix3 b (0 : Fin 1) f) k = ix2 f k :=
    funext fun a => Fin.ext (by match a with | ⟨0, _⟩ => rfl | ⟨1, _⟩ => rfl)
  rw [el, er, hidden_at]

/-- The reference's last stage at `(b, t, f)`. -/
theorem result_at (x0 : (⟨S64x4096x256, .f32⟩ : BufTy).Contents (Elt Ideal)) (x1 x2 : (⟨S256, .f32⟩ : BufTy).Contents (Elt Ideal))
    (x3 : (⟨S256x512, .f32⟩ : BufTy).Contents (Elt Ideal)) (x4 : (⟨S256, .f32⟩ : BufTy).Contents (Elt Ideal))
    (x5 : (⟨S256x256, .f32⟩ : BufTy).Contents (Elt Ideal)) (x6 : (⟨S256, .f32⟩ : BufTy).Contents (Elt Ideal))
    (b : Fin 64) (t : Fin 4096) (f : Fin 256) :
    Cert.ReferenceIdeal.Read.val_main_v42 (F := Ideal) x0 x1 x2 x3 x4 x5 x6 (ix3 b t f)
      = table (fun t' f' => x0 (ix3 b t' f')) (fun f' => x1 (ix1 f')) (fun f' => x2 (ix1 f'))
        (fun j k => x3 (ix2 j k)) (fun j => x4 (ix1 j)) (fun f' k => x5 (ix2 f' k)) (fun f' => x6 (ix1 f')) t f := by
  have e0 : Read.idx_main_v34 (ix3 b t f) = ix3 b (0 : Fin 1) f :=
    funext fun a => Fin.ext (by match a with | ⟨0, _⟩ => rfl | ⟨1, _⟩ => rfl | ⟨2, _⟩ => rfl)
  have e1 : Read.idx_main_v14 (ix3 b t f) = ix3 b (0 : Fin 1) f :=
    funext fun a => Fin.ext (by match a with | ⟨0, _⟩ => rfl | ⟨1, _⟩ => rfl | ⟨2, _⟩ => rfl)
  have e2 : Read.idx_main_v16 (ix3 b t f) = ix3 b (0 : Fin 1) f :=
    funext fun a => Fin.ext (by match a with | ⟨0, _⟩ => rfl | ⟨1, _⟩ => rfl | ⟨2, _⟩ => rfl)
  have e3 : Read.idx_main_v37 (Read.idx_main_v38 (ix3 b t f)) = ix1 f :=
    funext fun a => Fin.ext (by match a with | ⟨0, _⟩ => rfl)
  have e4 : Read.idx_main_v40 (Read.idx_main_v41 (ix3 b t f)) = ix1 f :=
    funext fun a => Fin.ext (by match a with | ⟨0, _⟩ => rfl)
  rw [Read.val_main_v42_apply, Read.val_main_v39_apply, Read.val_main_v38_apply, Read.val_main_v37_apply,
    Read.val_main_v36_apply, Read.val_main_v35_apply, Read.val_main_v34_apply, Read.val_main_v17_apply,
    Read.val_main_v15_apply, Read.val_main_v14_apply, Read.val_main_v16_apply, Read.val_main_v41_apply,
    Read.val_main_v40_apply, e0, e1, e2, e3, e4, gate_at, mean_at, dev_at]
  simp only [Ideal.hostDivf_def, Ideal.hostUnary_tanh_def, Ideal.addf_def, Ideal.subf_def, Ideal.mulf_def]
  rfl

end Cert.ReferenceIdeal.AtIndex

end
-- ==== Proof.LibFiniteTest.lean ====
/-
  The precondition "every float input is finite", read back.

  A precondition `jnp.all(jnp.abs(x) < inf)` prints as: the absolute value of the array, compared `<`
  entry by entry with the splat of the pattern of `+∞`, the `i1` results reduced by `and` from `1` over
  all axes. At the ideal reading `|x| = max x (−x)`, the pattern `0x7F800000` denotes `⊤`, and `max x (−x) < ⊤`
  holds exactly of the real numbers (for `⊥` the maximum is `⊤` too). So a test that came out `1` says
  every entry is a real.

  * `ofBits_inf`            the f32 pattern `0x7F800000` denotes `⊤`;
  * `lt_of_cmp_olt`         an ordered `<` comparison that answered `1` is the order's `<`;
  * `isReal_of_abs_lt_top`  `max x (−x) < ⊤` makes `x` a real;
  * `isReal_of_test`        one entry's printed test;
  * `allReal_of_all`        the whole printed conjunct: `jnp.all(jnp.abs(x) < inf) = 1` makes `x` real-valued.
-/
import Idealize.ShloMosaic.Lib.ReduceAll
import Idealize.ShloMosaic.PureOps.Ideal
import proofs.«118787_g14611478741530_feedfinal_158_4_alg».proof.Proof.LibRealValued

noncomputable section

namespace Cert.Lib.FiniteTest

open Idealize.ShloMosaic Cert.Lib.RealValued

/-- The f32 pattern of `+∞` denotes `⊤`. -/
theorem ofBits_inf : Ideal.ofBits .f32 0x7F800000#32 = (⊤ : EReal) := by
  simp [Ideal.ofBits, Ideal.ieee]

/-- An ordered `<` that answered `1` is `<`. -/
theorem lt_of_cmp_olt {a b : EReal} (h : Ideal.cmp .olt a b = 1#1) : a < b := by
  unfold Ideal.cmp at h
  by_contra hn
  simp [hn] at h

/-- An extended real whose absolute value is below `⊤` is a real. -/
theorem isReal_of_abs_lt_top {x : EReal} (h : max x (-x) < ⊤) : IsReal x := by
  induction x using EReal.rec with
  | bot => simp at h
  | coe r => exact ⟨r, rfl⟩
  | top => simp at h

/-- One entry's test, as printed: `|x| < +∞` answered `1`. -/
theorem isReal_of_test {x : EReal}
    (h : Ideal.cmp .olt (max x (-x)) (Ideal.ofBits .f32 0x7F800000#32) = 1#1) : IsReal x := by
  rw [ofBits_inf] at h
  exact isReal_of_abs_lt_top (lt_of_cmp_olt h)

/-- The printed conjunct of one input: the `and`-reduction over all axes of `|x| < +∞` (the bound a splat of the
    pattern of `+∞` from any constant shape) is `1`; then every entry of `x` is a real. -/
theorem allReal_of_all {s t u c : Shape} [Subsingleton t.Idx] {axes : List (Fin s.rank)} (x : FVec Ideal s .f32)
    (init : u.Idx → BitVec 1) (h : s.ReducesTo axes t) (hu : 0 < u.numel)
    (dims : Fin c.rank → Fin s.rank) (hb : c.BroadcastsInDim s dims) (j : t.Idx)
    (e : Host.reduce IntOp.andi (cmpf .olt (Host.absf x) (broadcastInDim s dims hb (constant c .f32 0x7F800000#32))) init h hu j = 1#1) :
    AllReal x := fun i =>
  isReal_of_test (Host.reduce_andi_all _ init h hu j e i)

end Cert.Lib.FiniteTest

end
-- ==== Proof.FiniteInputs.lean ====
/-
  The precondition read back: the input array holds real numbers.

  The precondition is a conjunction of seven tests, one per argument, each "every entry's absolute value is below
  +∞"; it is stated as the one-bit word 1. A conjunction of bits that is 1 has every conjunct 1, and the first
  conjunct — the test of the input array — then says every entry of the input is a real (neither infinity). Only that
  conjunct is needed: the identities between the two programs use no finiteness of the parameters.
-/
import proofs.«118787_g14611478741530_feedfinal_158_4_alg».proof.Pre_finite_inputs
import proofs.«118787_g14611478741530_feedfinal_158_4_alg».proof.Proof.LibRealValued
import proofs.«118787_g14611478741530_feedfinal_158_4_alg».proof.Proof.LibFiniteTest
import Idealize.ShloMosaic.Lib.ReduceAll
import Idealize.ShloMosaic.Lib.Affine
import Idealize.ShloMosaic.Lib.ValueIdx

noncomputable section

namespace Cert.Pre_finite_inputs.Real

open Idealize.ShloMosaic Cert.Lib.RealValued Cert.Lib.FiniteTest Cert.Pre_finite_inputs

variable [Facts]
open Facts

instance : Subsingleton S_.Idx := ⟨fun a b => funext fun d => d.elim0⟩

/-- If the whole test answers 1, the input array is real-valued. -/
theorem input_real (a0 : FVec Ideal S64x4096x256 .f32) (a1 a2 : FVec Ideal S256 .f32) (a3 : FVec Ideal S256x512 .f32)
    (a4 : FVec Ideal S256 .f32) (a5 : FVec Ideal S256x256 .f32) (a6 : FVec Ideal S256 .f32)
    (h : fn (F := Ideal) a0 a1 a2 a3 a4 a5 a6 = fun _ => 1#1) : AllReal a0 := by
  have h0 := congrFun h ValueIdx.ix0
  dsimp only [fn, fn_part1] at h0
  have h1 := (IntOp.andi_eq_one.1 h0).1
  have h2 := (IntOp.andi_eq_one.1 h1).1
  have h3 := (IntOp.andi_eq_one.1 h2).1
  have h4 := (IntOp.andi_eq_one.1 h3).1
  have h5 := (IntOp.andi_eq_one.1 h4).1
  have h6 := (IntOp.andi_eq_one.1 h5).1
  exact allReal_of_all a0 _ _ _ _ _ ValueIdx.ix0 h6

end Cert.Pre_finite_inputs.Real

end
-- ==== Proof.lean ====
/-
  A normalisation over time with a learned gate: the kernel against its reference, over the extended reals.

  Both programs compute, for each of 64 batch entries, a table `y t f = γ f · tanh(α f · (x t f − μ f) / σ f) + β f` over
  4096 time steps and 256 features, where `μ`, `σ` are the column means and stabilised deviations of `x` and the gate `α`
  comes from a two-layer perceptron on `(μ, σ)` (GatedNorm.lean states it). They differ in arrangement only. The
  reference divides by 4096 and takes the mean of squared deviations; the kernel multiplies by 2⁻¹², takes mean of
  squares minus squared mean clamped at zero, and scales the centred input by `α / σ` instead of scaling the normalised
  input by `α`. On REAL inputs these are one function: the variance identity, the clamp idle on a nonnegative real, the
  deviation a positive real, and commutativity of the product (GatedNormLaws.lean). The precondition makes the input
  real (FiniteInputs.lean); nothing is needed of the parameters.

  The reference's result is read operation by operation at an index (ReferenceRead.lean); the kernel's output block is
  read through its one store (KernelBlock.lean) and the 32 blocks, two batch entries each, tile the array
  (KernelArray.lean). The three frames are the programs' runs with the results forgotten; the kernel's idealisation
  rewrote nothing, so there is nothing to preserve.
-/
import proofs.«118787_g14611478741530_feedfinal_158_4_alg».proof.Defs
import proofs.«118787_g14611478741530_feedfinal_158_4_alg».proof.Proof.Gen.Kernel
import proofs.«118787_g14611478741530_feedfinal_158_4_alg».proof.Proof.Gen.Kernel.Skeleton
import proofs.«118787_g14611478741530_feedfinal_158_4_alg».proof.Proof.Gen.Kernel.Launch
import proofs.«118787_g14611478741530_feedfinal_158_4_alg».proof.Proof.Gen.Kernel.Points
import proofs.«118787_g14611478741530_feedfinal_158_4_alg».proof.Proof.Gen.Kernel.Frame
import proofs.«118787_g14611478741530_feedfinal_158_4_alg».proof.Proof.Gen.KernelIdeal
import proofs.«118787_g14611478741530_feedfinal_158_4_alg».proof.Proof.Gen.KernelIdeal.Skeleton
import proofs.«118787_g14611478741530_feedfinal_158_4_alg».proof.Proof.Gen.KernelIdeal.Launch
import proofs.«118787_g14611478741530_feedfinal_158_4_alg».proof.Proof.Gen.KernelIdeal.Points
import proofs.«118787_g14611478741530_feedfinal_158_4_alg».proof.Proof.Gen.KernelIdeal.Frame
import proofs.«118787_g14611478741530_feedfinal_158_4_alg».proof.Proof.Gen.ReferenceIdeal
import proofs.«118787_g14611478741530_feedfinal_158_4_alg».proof.Proof.Gen.Pre_finite_inputs
import proofs.«118787_g14611478741530_feedfinal_158_4_alg».proof.Proof.Gen.KernelIdeal.Value
import proofs.«118787_g14611478741530_feedfinal_158_4_alg».proof.Proof.Gen.ReferenceIdeal.Run
import proofs.«118787_g14611478741530_feedfinal_158_4_alg».proof.Proof.Gen.ReferenceIdeal.Read
import proofs.«118787_g14611478741530_feedfinal_158_4_alg».proof.Proof.GatedNorm
import proofs.«118787_g14611478741530_feedfinal_158_4_alg».proof.Proof.KernelArray
import proofs.«118787_g14611478741530_feedfinal_158_4_alg».proof.Proof.ReferenceRead
import proofs.«118787_g14611478741530_feedfinal_158_4_alg».proof.Proof.FiniteInputs
import Idealize.ShloMosaic.Adequacy
import Idealize.ShloMosaic.Init

noncomputable section

namespace Cert.Proof

open Idealize.ShloMosaic Idealize.ShloMosaic.TcCoe Idealize.SL.Sem Idealize.ShloMosaic.ValueIdx
open Cert.GatedNorm Cert.Lib.RealValued

/-- The kernel as printed runs to the end and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- And the reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments, the input real, both programs end with the gated normalisation of the
    arguments in their result arrays: the kernel block by block, the reference operation by operation. -/
theorem algebraic : Cert.algebraic_KernelIdeal_ReferenceIdeal := by
  intro m ρ m' ρ' hpre hagree
  have hx : ∀ (c : Dev Cert.KernelIdeal.nD) (i : Cert.KernelIdeal.S64x4096x256.Idx),
      IsReal ((m ((c : Thread Cert.KernelIdeal.nD Cert.KernelIdeal.τ).loc Cert.KernelIdeal.main_arg0)
        : Cert.KernelIdeal.S64x4096x256.Idx → EReal) i) :=
    fun c => Cert.Pre_finite_inputs.Real.input_real _ _ _ _ _ _ _ (hpre c)
  refine ⟨_, Cert.KernelIdeal.Whole.run m ρ hx, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, (hagree c).1, (hagree c).2.1, (hagree c).2.2.1, (hagree c).2.2.2.1,
    (hagree c).2.2.2.2.1, (hagree c).2.2.2.2.2.1, (hagree c).2.2.2.2.2.2]
  funext i
  obtain ⟨b, t, f, rfl⟩ : ∃ (b : Fin 64) (t : Fin 4096) (f : Fin 256), i = ix3 b t f :=
    ⟨(i : Cert.ReferenceIdeal.S64x4096x256.Idx) 0, (i : Cert.ReferenceIdeal.S64x4096x256.Idx) 1,
      (i : Cert.ReferenceIdeal.S64x4096x256.Idx) 2, eq_ix3 (i : Cert.ReferenceIdeal.S64x4096x256.Idx)⟩
  rw [Cert.ReferenceIdeal.AtIndex.result_at]
  exact (result_ix3 _ _ _ _ _ _ _ b t f).symm

/-- The claim: the three frames, nothing to preserve, and the equality of results. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
